-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x128 : Shape := ⟨2, ![400000, 128]⟩
abbrev S8x128x256 : Shape := ⟨3, ![8, 128, 256]⟩
abbrev S256 : Shape := ⟨1, ![256]⟩
abbrev S100000x8 : Shape := ⟨2, ![100000, 8]⟩
abbrev S_ : Shape := ⟨0, ![]⟩

class Facts : Prop where
  bcast_S_S400000x128 : S_.BroadcastsInDim S400000x128 (![] : Fin 0 → Fin S400000x128.rank)
  reducesTo_S400000x128_S_d0_1 : S400000x128.ReducesTo [0, 1] S_
  h_S_ : 0 < S_.numel
  bcast_S_S8x128x256 : S_.BroadcastsInDim S8x128x256 (![] : Fin 0 → Fin S8x128x256.rank)
  reducesTo_S8x128x256_S_d0_1_2 : S8x128x256.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S400000x128 .f32) (main_arg1 : FVec F S8x128x256 .f32) (main_arg2 : FVec F S256 .f32) (main_arg3 : FVec F S256 .f32) (main_arg4 : IVec S100000x8 32) : IVec S_ 1 :=
  let main_v0 : FVec F S400000x128 .f32 := Host.absf main_arg0
  let main_cst : FVec F S_ .f32 := constant S_ .f32 0x7F800000#32
  let main_v1 : FVec F S400000x128 .f32 := broadcastInDim S400000x128 ![] bcast_S_S400000x128 main_cst
  let main_v2 : IVec S400000x128 1 := cmpf .olt main_v0 main_v1
  let main_c : IVec S_ 1 := constantI S_ 1 1#1
  let main_v3 : IVec S_ 1 := (fun x v => Host.reduce IntOp.andi x v reducesTo_S400000x128_S_d0_1 h_S_) main_v2 main_c
  let main_v4 : FVec F S8x128x256 .f32 := Host.absf main_arg1
  let main_cst_0 : FVec F S_ .f32 := constant S_ .f32 0x7F800000#32
  let main_v5 : FVec F S8x128x256 .f32 := broadcastInDim S8x128x256 ![] bcast_S_S8x128x256 main_cst_0
  let main_v6 : IVec S8x128x256 1 := cmpf .olt main_v4 main_v5
  let main_c_1 : IVec S_ 1 := constantI S_ 1 1#1
  let main_v7 : IVec S_ 1 := (fun x v => Host.reduce IntOp.andi x v reducesTo_S8x128x256_S_d0_1_2 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S400000x128 : Shape := ⟨2, ![400000, 128]⟩
abbrev S8x128x256 : Shape := ⟨3, ![8, 128, 256]⟩
abbrev S256 : Shape := ⟨1, ![256]⟩
abbrev S100000x8 : Shape := ⟨2, ![100000, 8]⟩
abbrev S_ : Shape := ⟨0, ![]⟩
abbrev S1x128 : Shape := ⟨2, ![1, 128]⟩
abbrev S400001x128 : Shape := ⟨2, ![400001, 128]⟩
abbrev S100000x8x1 : Shape := ⟨3, ![100000, 8, 1]⟩
abbrev S100000x8x128 : Shape := ⟨3, ![100000, 8, 128]⟩
abbrev S100000x1024 : Shape := ⟨2, ![100000, 1024]⟩
abbrev S1024x256 : Shape := ⟨2, ![1024, 256]⟩
abbrev S100000x256 : Shape := ⟨2, ![100000, 256]⟩
abbrev S20x2x256 : Shape := ⟨3, ![20, 2, 256]⟩
abbrev S5000x1024 : Shape := ⟨2, ![5000, 1024]⟩
abbrev S5000x256 : Shape := ⟨2, ![5000, 256]⟩
abbrev S1x2x256 : Shape := ⟨3, ![1, 2, 256]⟩
abbrev S1x256 : Shape := ⟨2, ![1, 256]⟩
abbrev S1x1x256 : Shape := ⟨3, ![1, 1, 256]⟩
abbrev S20x1x256 : Shape := ⟨3, ![20, 1, 256]⟩
abbrev S20x256 : Shape := ⟨2, ![20, 256]⟩

abbrev nBuf : Space → Nat
  | .hbm => 58
  | .vmem => 7
  | .smem => 0
  | _ => 0

abbrev bufTy : (tb : Table) → Fin (tcTables nBuf tb) → BufTy
  | .hbm, ⟨0, _⟩ => ⟨S400000x128, .f32⟩
  | .hbm, ⟨1, _⟩ => ⟨S8x128x256, .f32⟩
  | .hbm, ⟨2, _⟩ => ⟨S256, .f32⟩
  | .hbm, ⟨3, _⟩ => ⟨S256, .f32⟩
  | .hbm, ⟨4, _⟩ => ⟨S100000x8, .i32⟩
  | .hbm, ⟨5, _⟩ => ⟨S_, .f32⟩
  | .hbm, ⟨6, _⟩ => ⟨S1x128, .f32⟩
  | .hbm, ⟨7, _⟩ => ⟨S400001x128, .f32⟩
  | .hbm, ⟨8, _⟩ => ⟨S400001x128, .bf16⟩
  | .hbm, ⟨9, _⟩ => ⟨S_, .i32⟩
  | .hbm, ⟨10, _⟩ => ⟨S100000x8, .i32⟩
  | .hbm, ⟨11, _⟩ => ⟨S100000x8, .i1⟩
  | .hbm, ⟨12, _⟩ => ⟨S_, .i32⟩
  | .hbm, ⟨13, _⟩ => ⟨S100000x8, .i32⟩
  | .hbm, ⟨14, _⟩ => ⟨S100000x8, .i32⟩
  | .hbm, ⟨15, _⟩ => ⟨S100000x8, .i32⟩
  | .hbm, ⟨16, _⟩ => ⟨S100000x8x1, .i32⟩
  | .hbm, ⟨17, _⟩ => ⟨S100000x8x128, .bf16⟩
  | .hbm, ⟨18, _⟩ => ⟨S100000x1024, .bf16⟩
  | .hbm, ⟨19, _⟩ => ⟨S1024x256, .f32⟩
  | .hbm, ⟨20, _⟩ => ⟨S1024x256, .bf16⟩
  | .hbm, ⟨21, _⟩ => ⟨S100000x256, .f32⟩
  | .hbm, ⟨22, _⟩ => ⟨S20x2x256, .f32⟩
  | .hbm, ⟨23, _⟩ => ⟨S20x1x256, .f32⟩
  | .hbm, ⟨24, _⟩ => ⟨S20x256, .f32⟩
  | .hbm, ⟨25, _⟩ => ⟨S_, .f32⟩
  | .hbm, ⟨26, _⟩ => ⟨S256, .f32⟩
  | .hbm, ⟨27, _⟩ => ⟨S20x1x256, .f32⟩
  | .hbm, ⟨28, _⟩ => ⟨S20x256, .f32⟩
  | .hbm, ⟨29, _⟩ => ⟨S_, .f32⟩
  | .hbm, ⟨30, _⟩ => ⟨S256, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S1x256, .f32⟩
  | .hbm, ⟨40, _⟩ => ⟨S100000x256, .f32⟩
  | .hbm, ⟨41, _⟩ => ⟨S100000x256, .f32⟩
  | .hbm, ⟨42, _⟩ => ⟨S_, .f32⟩
  | .hbm, ⟨43, _⟩ => ⟨S256, .f32⟩
  | .hbm, ⟨44, _⟩ => ⟨S256, .f32⟩
  | .hbm, ⟨45, _⟩ => ⟨S256, .f32⟩
  | .hbm, ⟨46, _⟩ => ⟨S1x256, .f32⟩
  | .hbm, ⟨47, _⟩ => ⟨S100000x256, .f32⟩
  | .hbm, ⟨48, _⟩ => ⟨S100000x256, .f32⟩
  | .hbm, ⟨49, _⟩ => ⟨S1x256, .f32⟩
  | .hbm, ⟨50, _⟩ => ⟨S100000x256, .f32⟩
  | .hbm, ⟨51, _⟩ => ⟨S100000x256, .f32⟩
  | .hbm, ⟨52, _⟩ => ⟨S1x256, .f32⟩
  | .hbm, ⟨53, _⟩ => ⟨S100000x256, .f32⟩
  | .hbm, ⟨54, _⟩ => ⟨S100000x256, .f32⟩
  | .hbm, ⟨55, _⟩ => ⟨S_, .f32⟩
  | .hbm, ⟨56, _⟩ => ⟨S100000x256, .f32⟩
  | .hbm, ⟨57, _⟩ => ⟨S100000x256, .f32⟩
  | .local _ .vmem, ⟨0, _⟩ => ⟨S5000x1024, .bf16⟩
  | .local _ .vmem, ⟨1, _⟩ => ⟨S5000x1024, .bf16⟩
  | .local _ .vmem, ⟨2, _⟩ => ⟨S1024x256, .bf16⟩
  | .local _ .vmem, ⟨3, _⟩ => ⟨S5000x256, .f32⟩
  | .local _ .vmem, ⟨4, _⟩ => ⟨S5000x256, .f32⟩
  | .local _ .vmem, ⟨5, _⟩ => ⟨S1x2x256, .f32⟩
  | .local _ .vmem, ⟨6, _⟩ => ⟨S1x2x256, .f32⟩
  | _, _ => ⟨S400000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_call0_cst : Ref sig .tc := ⟨.hbm, 55, rfl⟩
abbrev main_call0_v0 : Ref sig .tc := ⟨.hbm, 56, rfl⟩
abbrev main_v41 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1x128 : S_.BroadcastsInDim S1x128 (![] : Fin 0 → Fin S1x128.rank)
  concatenates_S400000x128_S1x128_S400001x128_d0 : Shape.Concatenates [S400000x128, S1x128] S400001x128 0
  bitsLt_bf16_f32 : FTy.bits .bf16 < FTy.bits .f32
  bcast_S_S100000x8 : S_.BroadcastsInDim S100000x8 (![] : Fin 0 → Fin S100000x8.rank)
  bcast_S100000x8_S100000x8x1_0_1 : S100000x8.BroadcastsInDim S100000x8x1 (![0, 1] : Fin 2 → Fin S100000x8x1.rank)
  shapeCasts_S100000x8x128_S100000x1024 : S100000x8x128.ShapeCasts S100000x1024
  shapeCasts_S8x128x256_S1024x256 : S8x128x256.ShapeCasts S1024x256
  inb_S5000x1024_S5000x1024_0_0 : ∀ a, (![0, 0] : Fin 2 → Nat) a + S5000x1024.size a ≤ S5000x1024.size a
  h_S5000x1024 : 0 < S5000x1024.numel
  shapeCasts_S5000x1024_S5000x1024 : S5000x1024.ShapeCasts S5000x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S5000x256_S5000x256_0_0 : ∀ a, (![0, 0] : Fin 2 → Nat) a + S5000x256.size a ≤ S5000x256.size a
  h_S5000x256 : 0 < S5000x256.numel
  reduces_S5000x256_S256 : S5000x256.Reduces [0] S256
  shapeCasts_S256_S1x256 : S256.ShapeCasts S1x256
  inb_S1x2x256_S1x1x256_0_0_0 : ∀ a, (![0, 0, 0] : Fin 3 → Nat) a + S1x1x256.size a ≤ S1x2x256.size a
  h_S1x1x256 : 0 < S1x1x256.numel
  shapeCasts_S1x1x256_S1x256 : S1x1x256.ShapeCasts S1x256
  shapeCasts_S1x256_S1x1x256 : S1x256.ShapeCasts S1x1x256
  inb_S1x2x256_S1x1x256_0_1_0 : ∀ a, (![0, 1, 0] : Fin 3 → Nat) a + S1x1x256.size a ≤ S1x2x256.size a
  slices_S20x2x256_S20x1x256_0_0_0 : S20x2x256.Slices ![0, 0, 0] S20x1x256
  shapeCasts_S20x1x256_S20x256 : S20x1x256.ShapeCasts S20x256
  reducesTo_S20x256_S256_d0 : S20x256.ReducesTo [0] S256
  h_S_ : 0 < S_.numel
  slices_S20x2x256_S20x1x256_0_1_0 : S20x2x256.Slices ![0, 1, 0] S20x1x256
  bcast_S_S256 : S_.BroadcastsInDim S256 (![] : Fin 0 → Fin S256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  gather_S400001x128_S100000x8x1_S100000x8x128_2_0_n_n_0_2_1128_wf : GatherDims.WF S400001x128 S100000x8x1 S100000x8x128 [2] [0] [] [0] [] 2 ![1, 128]
  dot_S5000x1024_S1024x256_S5000x256_1_0_0_1_n_n_wf : DotDims.WF S5000x1024 S1024x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1024.size a ≤ S100000x1024.size a
  hwx0_0 : ∀ i : grid0.Coords, EltTy.bits .bf16 = 32 ∨ (Rect.block (s := S100000x1024) S5000x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x256.size a ≤ S20x2x256.size a
  hwx0_3 : ∀ i : grid0.Coords, EltTy.bits .f32 = 32 ∨ (Rect.block (s := S20x2x256) S1x2x256.size (cc0_transform_3 i) (hinb0_3 i)).WholeWords (EltTy.packing .f32)

variable [Facts₀]

def gather_S400001x128_S100000x8x1_S100000x8x128_2_0_n_n_0_2_1128 : GatherDims S400001x128 S100000x8x1 S100000x8x128 where
  offsetDims := [2]
  collapsedSliceDims := [0]
  operandBatchingDims := []
  startIndicesBatchingDims := []
  startIndexMap := [0]
  indexVectorDim := 2
  sliceSizes := ![1, 128]
  wf := gather_S400001x128_S100000x8x1_S100000x8x128_2_0_n_n_0_2_1128_wf
def dot_S5000x1024_S1024x256_S5000x256_1_0_0_1_n_n : DotDims S5000x1024 S1024x256 S5000x256 where
  lhsContracting := [1]
  rhsContracting := [0]
  lhsNonContracting := [0]
  rhsNonContracting := [1]
  lhsBatch := []
  rhsBatch := []
  wf := dot_S5000x1024_S1024x256_S5000x256_1_0_0_1_n_n_wf

abbrev win0_0 : Pipeline.Window sig grid0 :=
  Pipeline.Window.ofSpec (Memref.whole main_v10) S5000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13_0) S5000x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_1) S1x2x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S400000x128 : Shape := ⟨2, ![400000, 128]⟩
abbrev S8x128x256 : Shape := ⟨3, ![8, 128, 256]⟩
abbrev S256 : Shape := ⟨1, ![256]⟩
abbrev S100000x8 : Shape := ⟨2, ![100000, 8]⟩
abbrev S_ : Shape := ⟨0, ![]⟩
abbrev S1x128 : Shape := ⟨2, ![1, 128]⟩
abbrev S400001x128 : Shape := ⟨2, ![400001, 128]⟩
abbrev S100000x256 : Shape := ⟨2, ![100000, 256]⟩
abbrev S100000x1 : Shape := ⟨2, ![100000, 1]⟩
abbrev S100000 : Shape := ⟨1, ![100000]⟩
abbrev S100000x128 : Shape := ⟨2, ![100000, 128]⟩
abbrev S1x128x256 : Shape := ⟨3, ![1, 128, 256]⟩
abbrev S128x256 : Shape := ⟨2, ![128, 256]⟩
abbrev S1x256 : Shape := ⟨2, ![1, 256]⟩

abbrev nBuf : Space → Nat
  | .hbm => 177
  | .vmem => 0
  | .smem => 0
  | _ => 0

abbrev hbmTy0_0 (i : Nat) : BufTy := match i % 128 with
  | 0 => ⟨S400000x128, .f32⟩
  | 1 => ⟨S8x128x256, .f32⟩
  | 2 => ⟨S256, .f32⟩
  | 3 => ⟨S256, .f32⟩
  | 4 => ⟨S100000x8, .i32⟩
  | 5 => ⟨S_, .f32⟩
  | 6 => ⟨S1x128, .f32⟩
  | 7 => ⟨S400001x128, .f32⟩
  | 8 => ⟨S_, .f32⟩
  | 9 => ⟨S100000x256, .f32⟩
  | 10 => ⟨S100000x1, .i32⟩
  | 11 => ⟨S100000, .i32⟩
  | 12 => ⟨S_, .i32⟩
  | 13 => ⟨S100000, .i32⟩
  | 14 => ⟨S100000, .i1⟩
  | 15 => ⟨S_, .i32⟩
  | 16 => ⟨S100000, .i32⟩
  | 17 => ⟨S100000, .i32⟩
  | 18 => ⟨S100000, .i32⟩
  | 19 => ⟨S100000x1, .i32⟩
  | 20 => ⟨S100000x128, .f32⟩
  | 21 => ⟨S1x128x256, .f32⟩
  | 22 => ⟨S128x256, .f32⟩
  | 23 => ⟨S100000x256, .f32⟩
  | 24 => ⟨S100000x256, .f32⟩
  | 25 => ⟨S100000x1, .i32⟩
  | 26 => ⟨S100000, .i32⟩
  | 27 => ⟨S_, .i32⟩
  | 28 => ⟨S100000, .i32⟩
  | 29 => ⟨S100000, .i1⟩
  | 30 => ⟨S_, .i32⟩
  | 31 => ⟨S100000, .i32⟩
  | 32 => ⟨S100000, .i32⟩
  | 33 => ⟨S100000, .i32⟩
  | 34 => ⟨S100000x1, .i32⟩
  | 35 => ⟨S100000x128, .f32⟩
  | 36 => ⟨S1x128x256, .f32⟩
  | 37 => ⟨S128x256, .f32⟩
  | 38 => ⟨S100000x256, .f32⟩
  | 39 => ⟨S100000x256, .f32⟩
  | 40 => ⟨S100000x1, .i32⟩
  | 41 => ⟨S100000, .i32⟩
  | 42 => ⟨S_, .i32⟩
  | 43 => ⟨S100000, .i32⟩
  | 44 => ⟨S100000, .i1⟩
  | 45 => ⟨S_, .i32⟩
  | 46 => ⟨S100000, .i32⟩
  | 47 => ⟨S100000, .i32⟩
  | 48 => ⟨S100000, .i32⟩
  | 49 => ⟨S100000x1, .i32⟩
  | 50 => ⟨S100000x128, .f32⟩
  | 51 => ⟨S1x128x256, .f32⟩
  | 52 => ⟨S128x256, .f32⟩
  | 53 => ⟨S100000x256, .f32⟩
  | 54 => ⟨S100000x256, .f32⟩
  | 55 => ⟨S100000x1, .i32⟩
  | 56 => ⟨S100000, .i32⟩
  | 57 => ⟨S_, .i32⟩
  | 58 => ⟨S100000, .i32⟩
  | 59 => ⟨S100000, .i1⟩
  | 60 => ⟨S_, .i32⟩
  | 61 => ⟨S100000, .i32⟩
  | 62 => ⟨S100000, .i32⟩
  | 63 => ⟨S100000, .i32⟩
  | 64 => ⟨S100000x1, .i32⟩
  | 65 => ⟨S100000x128, .f32⟩
  | 66 => ⟨S1x128x256, .f32⟩
  | 67 => ⟨S128x256, .f32⟩
  | 68 => ⟨S100000x256, .f32⟩
  | 69 => ⟨S100000x256, .f32⟩
  | 70 => ⟨S100000x1, .i32⟩
  | 71 => ⟨S100000, .i32⟩
  | 72 => ⟨S_, .i32⟩
  | 73 => ⟨S100000, .i32⟩
  | 74 => ⟨S100000, .i1⟩
  | 75 => ⟨S_, .i32⟩
  | 76 => ⟨S100000, .i32⟩
  | 77 => ⟨S100000, .i32⟩
  | 78 => ⟨S100000, .i32⟩
  | 79 => ⟨S100000x1, .i32⟩
  | 80 => ⟨S100000x128, .f32⟩
  | 81 => ⟨S1x128x256, .f32⟩
  | 82 => ⟨S128x256, .f32⟩
  | 83 => ⟨S100000x256, .f32⟩
  | 84 => ⟨S100000x256, .f32⟩
  | 85 => ⟨S100000x1, .i32⟩
  | 86 => ⟨S100000, .i32⟩
  | 87 => ⟨S_, .i32⟩
  | 88 => ⟨S100000, .i32⟩
  | 89 => ⟨S100000, .i1⟩
  | 90 => ⟨S_, .i32⟩
  | 91 => ⟨S100000, .i32⟩
  | 92 => ⟨S100000, .i32⟩
  | 93 => ⟨S100000, .i32⟩
  | 94 => ⟨S100000x1, .i32⟩
  | 95 => ⟨S100000x128, .f32⟩
  | 96 => ⟨S1x128x256, .f32⟩
  | 97 => ⟨S128x256, .f32⟩
  | 98 => ⟨S100000x256, .f32⟩
  | 99 => ⟨S100000x256, .f32⟩
  | 100 => ⟨S100000x1, .i32⟩
  | 101 => ⟨S100000, .i32⟩
  | 102 => ⟨S_, .i32⟩
  | 103 => ⟨S100000, .i32⟩
  | 104 => ⟨S100000, .i1⟩
  | 105 => ⟨S_, .i32⟩
  | 106 => ⟨S100000, .i32⟩
  | 107 => ⟨S100000, .i32⟩
  | 108 => ⟨S100000, .i32⟩
  | 109 => ⟨S100000x1, .i32⟩
  | 110 => ⟨S100000x128, .f32⟩
  | 111 => ⟨S1x128x256, .f32⟩
  | 112 => ⟨S128x256, .f32⟩
  | 113 => ⟨S100000x256, .f32⟩
  | 114 => ⟨S100000x256, .f32⟩
  | 115 => ⟨S100000x1, .i32⟩
  | 116 => ⟨S100000, .i32⟩
  | 117 => ⟨S_, .i32⟩
  | 118 => ⟨S100000, .i32⟩
  | 119 => ⟨S100000, .i1⟩
  | 120 => ⟨S_, .i32⟩
  | 121 => ⟨S100000, .i32⟩
  | 122 => ⟨S100000, .i32⟩
  | 123 => ⟨S100000, .i32⟩
  | 124 => ⟨S100000x1, .i32⟩
  | 125 => ⟨S100000x128, .f32⟩
  | 126 => ⟨S1x128x256, .f32⟩
  | 127 => ⟨S128x256, .f32⟩
  | _ => ⟨S400000x128, .f32⟩

abbrev hbmTy0_1 (i : Nat) : BufTy := match i % 128 with
  | 0 => ⟨S100000x256, .f32⟩
  | 1 => ⟨S100000x256, .f32⟩
  | 2 => ⟨S_, .f32⟩
  | 3 => ⟨S256, .f32⟩
  | 4 => ⟨S_, .f32⟩
  | 5 => ⟨S256, .f32⟩
  | 6 => ⟨S256, .f32⟩
  | 7 => ⟨S_, .i32⟩
  | 8 => ⟨S_, .f32⟩
  | 9 => ⟨S256, .f32⟩
  | 10 => ⟨S1x256, .f32⟩
  | 11 => ⟨S_, .f32⟩
  | 12 => ⟨S1x256, .f32⟩
  | 13 => ⟨S1x256, .f32⟩
  | 14 => ⟨S100000x256, .f32⟩
  | 15 => ⟨S100000x256, .f32⟩
  | 16 => ⟨S100000x256, .f32⟩
  | 17 => ⟨S_, .f32⟩
  | 18 => ⟨S_, .f32⟩
  | 19 => ⟨S_, .f32⟩
  | 20 => ⟨S_, .f32⟩
  | 21 => ⟨S256, .f32⟩
  | 22 => ⟨S256, .f32⟩
  | 23 => ⟨S256, .f32⟩
  | 24 => ⟨S_, .f32⟩
  | 25 => ⟨S_, .i1⟩
  | 26 => ⟨S_, .f32⟩
  | 27 => ⟨S_, .f32⟩
  | 28 => ⟨S256, .f32⟩
  | 29 => ⟨S256, .f32⟩
  | 30 => ⟨S1x256, .f32⟩
  | 31 => ⟨S100000x256, .f32⟩
  | 32 => ⟨S100000x256, .f32⟩
  | 33 => ⟨S_, .f32⟩
  | 34 => ⟨S256, .f32⟩
  | 35 => ⟨S256, .f32⟩
  | 36 => ⟨S256, .f32⟩
  | 37 => ⟨S1x256, .f32⟩
  | 38 => ⟨S100000x256, .f32⟩
  | 39 => ⟨S100000x256, .f32⟩
  | 40 => ⟨S1x256, .f32⟩
  | 41 => ⟨S100000x256, .f32⟩
  | 42 => ⟨S100000x256, .f32⟩
  | 43 => ⟨S1x256, .f32⟩
  | 44 => ⟨S100000x256, .f32⟩
  | 45 => ⟨S100000x256, .f32⟩
  | 46 => ⟨S_, .f32⟩
  | 47 => ⟨S100000x256, .f32⟩
  | 48 => ⟨S100000x256, .f32⟩
  | _ => ⟨S400000x128, .f32⟩

abbrev hbmTy (i : Nat) : BufTy := match i / 128 with
  | 0 => hbmTy0_0 i
  | 1 => hbmTy0_1 i
  | _ => ⟨S400000x128, .f32⟩

abbrev bufTy : (tb : Table) → Fin (tcTables nBuf tb) → BufTy
  | .hbm, ⟨i, _⟩ => hbmTy i
  | _, _ => ⟨S400000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_6 : Ref sig .tc := ⟨.hbm, 57, rfl⟩
abbrev main_v44 : Ref sig .tc := ⟨.hbm, 58, rfl⟩
abbrev main_v45 : Ref sig .tc := ⟨.hbm, 59, rfl⟩
abbrev main_c_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_c_8 : Ref sig .tc := ⟨.hbm, 72, rfl⟩
abbrev main_v57 : Ref sig .tc := ⟨.hbm, 73, rfl⟩
abbrev main_v58 : Ref sig .tc := ⟨.hbm, 74, rfl⟩
abbrev main_c_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_c_10 : Ref sig .tc := ⟨.hbm, 87, rfl⟩
abbrev main_v70 : Ref sig .tc := ⟨.hbm, 88, rfl⟩
abbrev main_v71 : Ref sig .tc := ⟨.hbm, 89, rfl⟩
abbrev main_c_11 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_c_12 : Ref sig .tc := ⟨.hbm, 102, rfl⟩
abbrev main_v83 : Ref sig .tc := ⟨.hbm, 103, rfl⟩
abbrev main_v84 : Ref sig .tc := ⟨.hbm, 104, rfl⟩
abbrev main_c_13 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_c_14 : Ref sig .tc := ⟨.hbm, 117, rfl⟩
abbrev main_v96 : Ref sig .tc := ⟨.hbm, 118, rfl⟩
abbrev main_v97 : Ref sig .tc := ⟨.hbm, 119, rfl⟩
abbrev main_c_15 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_16 : Ref sig .tc := ⟨.hbm, 130, rfl⟩
abbrev main_v107 : Ref sig .tc := ⟨.hbm, 131, rfl⟩
abbrev main_cst_17 : Ref sig .tc := ⟨.hbm, 132, rfl⟩
abbrev main_v108 : Ref sig .tc := ⟨.hbm, 133, rfl⟩
abbrev main_v109 : Ref sig .tc := ⟨.hbm, 134, rfl⟩
abbrev main_c_18 : Ref sig .tc := ⟨.hbm, 135, rfl⟩
abbrev main_call0_cst : Ref sig .tc := ⟨.hbm, 136, rfl⟩
abbrev main_call0_v0 : Ref sig .tc := ⟨.hbm, 137, rfl⟩
abbrev main_call0_v1 : Ref sig .tc := ⟨.hbm, 138, rfl⟩
abbrev main_call0_cst_0 : Ref sig .tc := ⟨.hbm, 139, rfl⟩
abbrev main_call0_v2 : Ref sig .tc := ⟨.hbm, 140, rfl⟩
abbrev main_call0_v3 : Ref sig .tc := ⟨.hbm, 141, rfl⟩
abbrev main_call0_v4 : Ref sig .tc := ⟨.hbm, 142, rfl⟩
abbrev main_call0_v5 : Ref sig .tc := ⟨.hbm, 143, rfl⟩
abbrev main_call0_v6 : Ref sig .tc := ⟨.hbm, 144, rfl⟩
abbrev main_call0_v7 : Ref sig .tc := ⟨.hbm, 145, rfl⟩
abbrev main_call0_cst_1 : Ref sig .tc := ⟨.hbm, 146, rfl⟩
abbrev main_call0_v8 : Ref sig .tc := ⟨.hbm, 147, rfl⟩
abbrev main_call0_cst_2 : Ref sig .tc := ⟨.hbm, 148, rfl⟩
abbrev main_call0_v9 : Ref sig .tc := ⟨.hbm, 149, rfl⟩
abbrev main_call0_v10 : Ref sig .tc := ⟨.hbm, 150, rfl⟩
abbrev main_call0_v11 : Ref sig .tc := ⟨.hbm, 151, rfl⟩
abbrev main_call0_cst_3 : Ref sig .tc := ⟨.hbm, 152, rfl⟩
abbrev main_call0_v12 : Ref sig .tc := ⟨.hbm, 153, rfl⟩
abbrev main_call0_cst_4 : Ref sig .tc := ⟨.hbm, 154, rfl⟩
abbrev main_call0_call0_v0 : Ref sig .tc := ⟨.hbm, 155, rfl⟩
abbrev main_call0_call0_v1 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_19 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_call1_cst : Ref sig .tc := ⟨.hbm, 174, rfl⟩
abbrev main_call1_v0 : Ref sig .tc := ⟨.hbm, 175, rfl⟩
abbrev main_v126 : Ref sig .tc := ⟨.hbm, 176, rfl⟩

abbrev nD : Nat := 1
abbrev τ : Topo := Topo.v7x

variable {F : FTy → Type} [FloatOps F]

class Facts₀ : Prop where
  bcast_S_S1x128 : S_.BroadcastsInDim S1x128 (![] : Fin 0 → Fin S1x128.rank)
  concatenates_S400000x128_S1x128_S400001x128_d0 : Shape.Concatenates [S400000x128, S1x128] S400001x128 0
  bcast_S_S100000x256 : S_.BroadcastsInDim S100000x256 (![] : Fin 0 → Fin S100000x256.rank)
  slices_S100000x8_S100000x1_0_0 : S100000x8.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S8x128x256_S1x128x256_0_0_0 : S8x128x256.Slices ![0, 0, 0] S1x128x256
  shapeCasts_S1x128x256_S128x256 : S1x128x256.ShapeCasts S128x256
  slices_S100000x8_S100000x1_0_1 : S100000x8.Slices ![0, 1] S100000x1
  slices_S8x128x256_S1x128x256_1_0_0 : S8x128x256.Slices ![1, 0, 0] S1x128x256
  slices_S100000x8_S100000x1_0_2 : S100000x8.Slices ![0, 2] S100000x1
  slices_S8x128x256_S1x128x256_2_0_0 : S8x128x256.Slices ![2, 0, 0] S1x128x256
  slices_S100000x8_S100000x1_0_3 : S100000x8.Slices ![0, 3] S100000x1
  slices_S8x128x256_S1x128x256_3_0_0 : S8x128x256.Slices ![3, 0, 0] S1x128x256
  slices_S100000x8_S100000x1_0_4 : S100000x8.Slices ![0, 4] S100000x1
  slices_S8x128x256_S1x128x256_4_0_0 : S8x128x256.Slices ![4, 0, 0] S1x128x256
  slices_S100000x8_S100000x1_0_5 : S100000x8.Slices ![0, 5] S100000x1
  slices_S8x128x256_S1x128x256_5_0_0 : S8x128x256.Slices ![5, 0, 0] S1x128x256
  slices_S100000x8_S100000x1_0_6 : S100000x8.Slices ![0, 6] S100000x1
  slices_S8x128x256_S1x128x256_6_0_0 : S8x128x256.Slices ![6, 0, 0] S1x128x256
  slices_S100000x8_S100000x1_0_7 : S100000x8.Slices ![0, 7] S100000x1
  slices_S8x128x256_S1x128x256_7_0_0 : S8x128x256.Slices ![7, 0, 0] S1x128x256
  reducesTo_S100000x256_S256_d0 : S100000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S100000x256_0_1 : S1x256.BroadcastsInDim S100000x256 (![0, 1] : Fin 2 → Fin S100000x256.rank)
  gather_S400001x128_S100000x1_S100000x128_1_0_n_n_0_1_1128_wf : GatherDims.WF S400001x128 S100000x1 S100000x128 [1] [0] [] [0] [] 1 ![1, 128]
  dot_S100000x128_S128x256_S100000x256_1_0_0_1_n_n_wf : DotDims.WF S100000x128 S128x256 S100000x256 [1] [0] [0] [1] [] []

variable [Facts₀]

def gather_S400001x128_S100000x1_S100000x128_1_0_n_n_0_1_1128 : GatherDims S400001x128 S100000x1 S100000x128 where
  offsetDims := [1]
  collapsedSliceDims := [0]
  operandBatchingDims := []
  startIndicesBatchingDims := []
  startIndexMap := [0]
  indexVectorDim := 1
  sliceSizes := ![1, 128]
  wf := gather_S400001x128_S100000x1_S100000x128_1_0_n_n_0_1_1128_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf

class Facts : Prop extends Facts₀ where

variable [Facts]
-- ==== Proof.KPay.lean ====
/-
  What one grid step of the kernel computes, entry by entry, on the extended reals.

  A step holds a tile `x` of 5000 gathered rows (1024 entries each: the eight selected table rows of a site laid side by
  side) and the flattened weights `w` (1024 × 256). It stores
    the tile product          t[r, q]  = Σ_j x[r, j] · w[j, q],
    its column sums           s0[q]    = Σ_r t[r, q],
    and the sums of squares   s1[q]    = Σ_r t[r, q] · t[r, q].
  Changing the float format of an operand does nothing to an extended real, and the product accumulates into a zero
  splat, so each is exactly the finite sum written here.
-/
import proofs.«126886_j25967372272144_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KV

open Idealize.ShloMosaic Idealize.ShloMosaic.ValueIdx Cert.KernelIdeal Cert.KernelIdeal.Gen

/-- The tile product's dimension numbers: rows × contraction against contraction × columns. -/
abbrev dotK : DotDims S5000x1024 S1024x256 S5000x256 := dot_S5000x1024_S1024x256_S5000x256_1_0_0_1_n_n

theorem lhs_row (i : S5000x256.Idx) (q : dotK.contr.Idx) : (dotK.lhsIdx i q 0).val = (i 0).val := by
  unfold DotDims.lhsIdx
  rw [dif_neg (show ¬(0 : Fin S5000x1024.rank) ∈ dotK.lhsBatch by decide),
    dif_pos (show (0 : Fin S5000x1024.rank) ∈ dotK.lhsNonContracting by decide)]
  rfl
theorem lhs_contr (i : S5000x256.Idx) (q : dotK.contr.Idx) : (dotK.lhsIdx i q 1).val = (q ⟨0, by decide⟩).val :=
  dotK.lhsIdx_val_of_single rfl i q
theorem rhs_contr (i : S5000x256.Idx) (q : dotK.contr.Idx) : (dotK.rhsIdx i q 0).val = (q ⟨0, by decide⟩).val :=
  dotK.rhsIdx_val_of_single rfl i q
theorem rhs_col (i : S5000x256.Idx) (q : dotK.contr.Idx) : (dotK.rhsIdx i q 1).val = (i 1).val := by
  unfold DotDims.rhsIdx
  rw [dif_neg (show ¬(1 : Fin S1024x256.rank) ∈ dotK.rhsBatch by decide),
    dif_pos (show (1 : Fin S1024x256.rank) ∈ dotK.rhsNonContracting by decide)]
  rfl

/-- The tile product at row `r`, column `q`: the sum over the 1024 contraction positions. -/
theorem tile_apply (x0 : FVec Ideal S5000x1024 .bf16) (x1 : FVec Ideal S1024x256 .bf16) (r : Fin 5000) (q : Fin 256) :
    k0_pay1 (F := Ideal) x0 x1 (ix2 r q) = ∑ j : Fin 1024, x0 (ix2 r j) * x1 (ix2 j q) := by
  unfold k0_pay1
  simp only [shapeCast_self, matmul]
  rw [Ideal.matmul_constant_zero_apply, ← Equiv.sum_comp (contrEquiv1 dotK 1024 rfl rfl).symm]
  refine Finset.sum_congr rfl fun k _ => ?_
  have hk := contrEquiv1_symm_val dotK 1024 rfl rfl k
  have el : dotK.lhsIdx (ix2 r q) ((contrEquiv1 dotK 1024 rfl rfl).symm k) = ix2 r k := funext fun a => Fin.ext (by
    match a with
    | ⟨0, _⟩ => exact lhs_row _ _
    | ⟨1, _⟩ => exact (lhs_contr _ _).trans hk)
  have er : dotK.rhsIdx (ix2 r q) ((contrEquiv1 dotK 1024 rfl rfl).symm k) = ix2 k q := funext fun a => Fin.ext (by
    match a with
    | ⟨0, _⟩ => exact (rhs_contr _ _).trans hk
    | ⟨1, _⟩ => exact rhs_col _ _)
  rw [el, er]

/-- A sum over the rows of a 5000 × 256 vector, read at column `q`. -/
theorem rowsum_apply (v : FVec Ideal S5000x256 .f32) (q : Fin 256) :
    multiReduction .add [0] S256 v 0x00000000#32 reduces_S5000x256_S256 (.inl rfl) rfl (ix1 q)
      = ∑ r : Fin 5000, v (ix2 r q) := by
  refine (Ideal.multiReduction_add_single v 0x00000000#32 reduces_S5000x256_S256 (.inl rfl) rfl (ix1 q)).trans ?_
  refine Finset.sum_congr rfl fun r _ => congrArg v ?_
  funext a
  match a with
  | ⟨0, _⟩ => rfl
  | ⟨1, _⟩ => rfl

/-- The first stored row of the statistics block: the tile product's column sums. -/
theorem colsum_apply (x0 : FVec Ideal S5000x1024 .bf16) (x1 : FVec Ideal S1024x256 .bf16) (u v : Fin 1) (q : Fin 256) :
    k0_pay2 (F := Ideal) x0 x1 (ix3 u v q) = ∑ r : Fin 5000, k0_pay1 (F := Ideal) x0 x1 (ix2 r q) := by
  unfold k0_pay2
  rw [shapeCast_ab_1ab_apply, shapeCast_a_1a_apply]
  exact rowsum_apply _ q

/-- The second stored row: the column sums of the squared entries. -/
theorem colsumsq_apply (x0 : FVec Ideal S5000x1024 .bf16) (x1 : FVec Ideal S1024x256 .bf16) (u v : Fin 1) (q : Fin 256) :
    k0_pay3 (F := Ideal) x0 x1 (ix3 u v q)
      = ∑ r : Fin 5000, k0_pay1 (F := Ideal) x0 x1 (ix2 r q) * k0_pay1 (F := Ideal) x0 x1 (ix2 r q) := by
  unfold k0_pay3
  rw [shapeCast_ab_1ab_apply, shapeCast_a_1a_apply]
  exact rowsum_apply _ q

end Cert.KernelIdeal.KV

end
-- ==== Proof.KBlocks.lean ====
/-
  From one grid step to the two result arrays of the kernel call.

  Step `t` (of 20) reads rows `5000·t … 5000·t + 4999` of the gathered array `X` (100000 × 1024) and the whole flattened
  weight array `Wf` (1024 × 256). It writes back rows `5000·t …` of the product array and row `t` of the statistics array.
  The steps' blocks tile both arrays, so after the call
    product[p, q]   = Σ_j X[p, j] · Wf[j, q]
    stats[t, 0, q]  = Σ_{r<5000} product[5000·t + r, q]
    stats[t, 1, q]  = Σ_{r<5000} product[5000·t + r, q]².
-/
import proofs.«126886_j25967372272144_2_alg».proof.Proof.Gen.KernelIdeal.Frame
import proofs.«126886_j25967372272144_2_alg».proof.Proof.KPay
import Idealize.ShloMosaic.Lib.Pipeline.Value

noncomputable section

open Idealize.ShloMosaic Idealize.ShloMosaic.TcCoe Idealize.SL.Sem
open Idealize.ShloMosaic.Pipeline (Dat)

namespace Cert.KernelIdeal.KV

open Idealize.ShloMosaic.ValueIdx Cert.KernelIdeal Cert.KernelIdeal.Gen

variable (m : (ℓ : Loc nD τ sig) → Buf (Elt Ideal) ℓ) (ρ : Dev nD → PrngReg)

/-- The product of the gathered array and the flattened weights at site `p`, channel `q`. -/
def prodAt (X : S100000x1024.Idx → EReal) (Wf : S1024x256.Idx → EReal) (p : Fin 100000) (q : Fin 256) : EReal :=
  ∑ j : Fin 1024, X (ix2 p j) * Wf (ix2 j q)

/-- The product array. -/
def prodArr (X : S100000x1024.Idx → EReal) (Wf : S1024x256.Idx → EReal) : S100000x256.Idx → EReal :=
  fun i => prodAt X Wf (i 0) (i 1)

/-- Row `s` of tile `t`'s statistics at channel `q`: the tile's 5000 product entries summed (`s = 0`), or their squares. -/
def statAt (X : S100000x1024.Idx → EReal) (Wf : S1024x256.Idx → EReal) (t : Fin 20) (s : Fin 2) (q : Fin 256) : EReal :=
  if s.val = 0 then ∑ r : Fin 5000, prodAt X Wf ⟨5000 * t.val + r.val, by omega⟩ q
  else ∑ r : Fin 5000, prodAt X Wf ⟨5000 * t.val + r.val, by omega⟩ q * prodAt X Wf ⟨5000 * t.val + r.val, by omega⟩ q

/-- The statistics array. -/
def statArr (X : S100000x1024.Idx → EReal) (Wf : S1024x256.Idx → EReal) : S20x2x256.Idx → EReal :=
  fun i => statAt X Wf (i 0) (i 1) (i 2)

theorem hz2 : (![0, 0] : Fin 2 → Nat) = fun _ => 0 := funext fun a => by fin_cases a <;> rfl

/-- The printed index maps over the grid: the row-tiled windows sit at block `t` on their first axis and block 0
    elsewhere; the weights' window never moves. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Step `t`'s block of the gathered array is its rows `5000·t + r`. -/
theorem iblk0_apply (c : Dev nD) (t : Fin cfg0.N) (r : Fin 5000) (j : Fin 1024) (p : Fin 100000)
    (hp : p.val = 5000 * t.val + r.val) :
    (iblk m c 0 t : Vec Ideal S5000x1024 .bf16) (ix2 r j) = (V m c main_v10 : S100000x1024.Idx → EReal) (ix2 p j) := by
  obtain ⟨e0, e1, -⟩ := idx_facts t
  unfold iblk
  rw [View.read_apply]
  show V m c main_v10 _ = V m c main_v10 _
  congr 1
  funext a
  apply Fin.ext
  match a with
  | ⟨0, _⟩ => show win0_0.index t 0 * 5000 + 1 * r.val = p.val; rw [e0, hp]; omega
  | ⟨1, _⟩ => show win0_0.index t 1 * 1024 + 1 * j.val = j.val; rw [e1]; omega

/-- Every step's block of the weights is the whole array. -/
theorem iblk1_apply (c : Dev nD) (t : Fin cfg0.N) (j : Fin 1024) (q : Fin 256) :
    (iblk m c 1 t : Vec Ideal S1024x256 .bf16) (ix2 j q) = (V m c main_v12 : S1024x256.Idx → EReal) (ix2 j q) := by
  obtain ⟨-, -, e0, e1, -⟩ := idx_facts t
  unfold iblk
  rw [View.read_apply]
  show V m c main_v12 _ = V m c main_v12 _
  congr 1
  funext a
  apply Fin.ext
  match a with
  | ⟨0, _⟩ => show win0_1.index t 0 * 1024 + 1 * j.val = j.val; rw [e0]; omega
  | ⟨1, _⟩ => show win0_1.index t 1 * 256 + 1 * q.val = q.val; rw [e1]; omega

/-- What the body leaves in a step's statistics block, as one function of the block index: row 0 the tile product's
    column sums, row 1 the column sums of its squares. -/
def statBlk (x0 : FVec Ideal S5000x1024 .bf16) (x1 : FVec Ideal S1024x256 .bf16) : S1x2x256.Idx → EReal :=
  fun y => if (y 1).val = 0 then k0_pay2 (F := Ideal) x0 x1 (ix3 (0 : Fin 1) (0 : Fin 1) (⟨(y 2).val, (y 2).isLt⟩ : Fin 256))
    else k0_pay3 (F := Ideal) x0 x1 (ix3 (0 : Fin 1) (0 : Fin 1) (⟨(y 2).val, (y 2).isLt⟩ : Fin 256))

/-- The two row stores of the statistics block are the two rows of that function. -/
theorem out3_apply (x0 : FVec Ideal S5000x1024 .bf16) (x1 : FVec Ideal S1024x256 .bf16) (y : S1x2x256.Idx) :
    out0_3 (F := Ideal) x0 x1 y = statBlk x0 x1 y := by
  unfold out0_3
  simp only [View.ld_unit_zero (S := S5000x1024) hz2, View.ld_unit_zero (S := S1024x256) hz2]
  refine View.canon_apply_of_pieces (Val := Elt Ideal) (e := .f32) (statBlk x0 x1 : S1x2x256.Idx → Elt Ideal .f32) _ ?_ y (cover0_3 _ _ y)
  intro p hp x
  simp only [List.mem_cons, List.mem_nil_iff, or_false] at hp
  rcases hp with rfl | rfl
  · have h0 : (x 0).val = 0 := by have : (x 0).val < 1 := (x 0).isLt; omega
    have h1 : (x 1).val = 0 := by have : (x 1).val < 1 := (x 1).isLt; omega
    have e1 : ((r0_4.emb x) 1).val = 1 := by
      rw [Rect.emb_apply]; show 1 + 1 * (x 1).val = 1; omega
    have e2 : ((r0_4.emb x) 2).val = (x 2).val := by
      rw [Rect.emb_apply]; show 0 + 1 * (x 2).val = (x 2).val; omega
    show k0_pay3 (F := Ideal) x0 x1 x = statBlk x0 x1 (r0_4.emb x)
    unfold statBlk
    rw [if_neg (by rw [e1]; omega)]
    refine congrArg (k0_pay3 (F := Ideal) x0 x1) (funext fun a => Fin.ext ?_)
    match a with
    | ⟨0, _⟩ => exact h0
    | ⟨1, _⟩ => exact h1
    | ⟨2, _⟩ => exact e2.symm
  · have h0 : (x 0).val = 0 := by have : (x 0).val < 1 := (x 0).isLt; omega
    have h1 : (x 1).val = 0 := by have : (x 1).val < 1 := (x 1).isLt; omega
    have e1 : ((r0_3.emb x) 1).val = 0 := by
      rw [Rect.emb_apply]; show 0 + 1 * (x 1).val = 0; omega
    have e2 : ((r0_3.emb x) 2).val = (x 2).val := by
      rw [Rect.emb_apply]; show 0 + 1 * (x 2).val = (x 2).val; omega
    show k0_pay2 (F := Ideal) x0 x1 x = statBlk x0 x1 (r0_3.emb x)
    unfold statBlk
    rw [if_pos e1]
    refine congrArg (k0_pay2 (F := Ideal) x0 x1) (funext fun a => Fin.ext ?_)
    match a with
    | ⟨0, _⟩ => exact h0
    | ⟨1, _⟩ => exact h1
    | ⟨2, _⟩ => exact e2.symm

theorem lt20 (t : Fin cfg0.N) : t.val < 20 := Nat.lt_of_lt_of_eq t.isLt N_0

/-- The tile product of step `t` at row `r` is the product array's entry at site `5000·t + r`. -/
theorem tile_at (c : Dev nD) (t : Fin cfg0.N) (r : Fin 5000) (q : Fin 256) (p : Fin 100000) (hp : p.val = 5000 * t.val + r.val) :
    k0_pay1 (F := Ideal) (iblk m c 0 t) (iblk m c 1 t) (ix2 r q) = prodAt (V m c main_v10) (V m c main_v12) p q := by
  refine (tile_apply (iblk m c 0 t) (iblk m c 1 t) r q).trans ?_
  unfold prodAt
  refine Finset.sum_congr rfl fun j _ => ?_
  rw [iblk0_apply m c t r j p hp, iblk1_apply m c t j q]

/-- WHAT STEP `t` WRITES BACK to the product array is block `t` of `prodArr`. -/
theorem flushed2_eq (c : Dev nD) (t : Fin cfg0.N) :
    (dats m 0 c).flushed 2 t = ((cfg0.win 2).blk t).view.read (Elt Ideal) (prodArr (V m c main_v10) (V m c main_v12)) := by
  show (cfg0.win 2).cut (grid0.coords t) ((dats m 0 c).after 2 t) = _
  rw [after0_2]
  unfold out0_2
  rw [View.canon_unit_zero hz2]
  simp only [View.ld_unit_zero (S := S5000x1024) hz2, View.ld_unit_zero (S := S1024x256) hz2]
  obtain ⟨-, -, -, -, e0, e1, -⟩ := idx_facts t
  have hN := lt20 t
  funext j
  obtain ⟨r, q, rfl⟩ : ∃ (r : Fin 5000) (q : Fin 256), j = ix2 r q := ⟨j 0, j 1, eq_ix2 j⟩
  show k0_pay1 (F := Ideal) (iblk m c 0 t) (iblk m c 1 t) (ix2 r q)
    = prodArr (V m c main_v10) (V m c main_v12) (((cfg0.win 2).blk t).view.emb (ix2 r q))
  have hemb : ((cfg0.win 2).blk t).view.emb (ix2 r q) = ix2 (⟨5000 * t.val + r.val, by omega⟩ : Fin 100000) q := by
    funext a
    apply Fin.ext
    match a with
    | ⟨0, _⟩ => show win0_2.index t 0 * 5000 + 1 * r.val = 5000 * t.val + r.val; rw [e0]; omega
    | ⟨1, _⟩ => show win0_2.index t 1 * 256 + 1 * q.val = q.val; rw [e1]; omega
  rw [hemb]
  exact tile_at m c t r q _ rfl

/-- WHAT STEP `t` WRITES BACK to the statistics array is block `t` of `statArr`. -/
theorem flushed3_eq (c : Dev nD) (t : Fin cfg0.N) :
    (dats m 0 c).flushed 3 t = ((cfg0.win 3).blk t).view.read (Elt Ideal) (statArr (V m c main_v10) (V m c main_v12)) := by
  show (cfg0.win 3).cut (grid0.coords t) ((dats m 0 c).after 3 t) = _
  rw [after0_3]
  obtain ⟨-, -, -, -, -, -, e0, e1, e2⟩ := idx_facts t
  have hN := lt20 t
  funext j
  obtain ⟨u, s, q, rfl⟩ : ∃ (u : Fin 1) (s : Fin 2) (q : Fin 256), j = ix3 u s q := ⟨j 0, j 1, j 2, eq_ix3 j⟩
  show out0_3 (F := Ideal) (iblk m c 0 t) (iblk m c 1 t) (ix3 u s q)
    = statArr (V m c main_v10) (V m c main_v12) (((cfg0.win 3).blk t).view.emb (ix3 u s q))
  have hemb : ((cfg0.win 3).blk t).view.emb (ix3 u s q) = ix3 (⟨t.val, hN⟩ : Fin 20) s q := by
    funext a
    apply Fin.ext
    match a with
    | ⟨0, _⟩ => show win0_3.index t 0 * 1 + 1 * u.val = t.val; rw [e0]; omega
    | ⟨1, _⟩ => show win0_3.index t 1 * 2 + 1 * s.val = s.val; rw [e1]; omega
    | ⟨2, _⟩ => show win0_3.index t 2 * 256 + 1 * q.val = q.val; rw [e2]; omega
  rw [hemb, out3_apply]
  show statBlk _ _ (ix3 u s q) = statAt _ _ (⟨t.val, hN⟩ : Fin 20) s q
  unfold statBlk statAt
  by_cases hs : s.val = 0
  · rw [if_pos hs, if_pos hs]
    refine (colsum_apply _ _ 0 0 q).trans ?_
    exact Finset.sum_congr rfl fun r _ => tile_at m c t r q _ rfl
  · rw [if_neg hs, if_neg hs]
    refine (colsumsq_apply _ _ 0 0 q).trans ?_
    refine Finset.sum_congr rfl fun r _ => ?_
    rw [tile_at m c t r q ⟨5000 * t.val + r.val, by omega⟩ rfl]

/-- An index of the product array is in step `t`'s block iff each coordinate is in the block's range. -/
theorem mem_blk2 (t : Fin cfg0.N) (i : S100000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v13_0).slice (win0_2.rect t)).set ↔ _
  rw [View.set_slice_whole, Rect.mem_set_unit]
  exact Iff.rfl

/-- Row `p` of the product array is written by step `p / 5000`. -/
theorem cover2 (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  have ht : (i 0).val / 5000 < cfg0.N := Nat.lt_of_lt_of_eq (by omega : (i 0).val / 5000 < 20) N_0.symm
  obtain ⟨-, -, -, -, e0, e1, -⟩ := idx_facts ⟨(i 0).val / 5000, ht⟩
  refine ⟨⟨(i 0).val / 5000, ht⟩, flush0_2 _, ?_⟩
  rw [mem_blk2]
  intro a
  match a with
  | ⟨0, _⟩ =>
    show win0_2.index ⟨(i 0).val / 5000, ht⟩ 0 * 5000 ≤ (i 0).val ∧ (i 0).val < win0_2.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_2.index ⟨(i 0).val / 5000, ht⟩ 1 * 256 ≤ (i 1).val ∧ (i 1).val < win0_2.index ⟨(i 0).val / 5000, ht⟩ 1 * 256 + 256
    rw [e1]; omega

/-- An index of the statistics array is in step `t`'s block iff each coordinate is in the block's range. -/
theorem mem_blk3 (t : Fin cfg0.N) (i : S20x2x256.Idx) :
    i ∈ ((cfg0.win 3).blk t).view.set ↔ ∀ a : Fin 3, win0_3.index t a * S1x2x256.size a ≤ (i a).val
      ∧ (i a).val < win0_3.index t a * S1x2x256.size a + S1x2x256.size a := by
  show i ∈ ((View.whole main_v13_1).slice (win0_3.rect t)).set ↔ _
  rw [View.set_slice_whole, Rect.mem_set_unit]
  exact Iff.rfl

/-- Row `t` of the statistics array is written by step `t`. -/
theorem cover3 (i : S20x2x256.Idx) :
    ∃ t : Fin cfg0.N, (cfg0.win 3).flush t = true ∧ i ∈ ((cfg0.win 3).blk t).view.set := by
  have hi0 : (i 0).val < 20 := (i 0).isLt
  have hi1 : (i 1).val < 2 := (i 1).isLt
  have hi2 : (i 2).val < 256 := (i 2).isLt
  have ht : (i 0).val < cfg0.N := Nat.lt_of_lt_of_eq hi0 N_0.symm
  obtain ⟨-, -, -, -, -, -, e0, e1, e2⟩ := idx_facts ⟨(i 0).val, ht⟩
  refine ⟨⟨(i 0).val, ht⟩, flush0_3 _, ?_⟩
  rw [mem_blk3]
  intro a
  match a with
  | ⟨0, _⟩ =>
    show win0_3.index ⟨(i 0).val, ht⟩ 0 * 1 ≤ (i 0).val ∧ (i 0).val < win0_3.index ⟨(i 0).val, ht⟩ 0 * 1 + 1
    rw [e0]; show (i 0).val * 1 ≤ (i 0).val ∧ (i 0).val < (i 0).val * 1 + 1; omega
  | ⟨1, _⟩ =>
    show win0_3.index ⟨(i 0).val, ht⟩ 1 * 2 ≤ (i 1).val ∧ (i 1).val < win0_3.index ⟨(i 0).val, ht⟩ 1 * 2 + 2
    rw [e1]; omega
  | ⟨2, _⟩ =>
    show win0_3.index ⟨(i 0).val, ht⟩ 2 * 256 ≤ (i 2).val ∧ (i 2).val < win0_3.index ⟨(i 0).val, ht⟩ 2 * 256 + 256
    rw [e2]; omega

/-- After the call the product array holds `prodArr` of the two arrays the call was given. -/
theorem final2 (c : Dev nD) : (dats m 0 c).arrAt 2 cfg0.N = prodArr (V m c main_v10) (V m c main_v12) :=
  (dats m 0 c).arrAt_eq_of_cover 2 (prodArr (V m c main_v10) (V m c main_v12)) (fun t _ => flushed2_eq m c t) cover2

/-- After the call the statistics array holds `statArr` of them. -/
theorem final3 (c : Dev nD) : (dats m 0 c).arrAt 3 cfg0.N = statArr (V m c main_v10) (V m c main_v12) :=
  (dats m 0 c).arrAt_eq_of_cover 3 (statArr (V m c main_v10) (V m c main_v12)) (fun t _ => flushed3_eq m c t) cover3

end Cert.KernelIdeal.KV

end
-- ==== Proof.KRun.lean ====
/-
  The kernel program's run, read at its result.

  After the call the program takes the statistics array `S` (per tile: column sums, column sums of squares) and the product
  array `x`, and computes, per output channel,
    mu  = (Σ_t S[t, 0, ·]) / 100000,     var = (Σ_t S[t, 1, ·]) / 100000 − mu · mu,
  and the result  max( (x − mu) · rsqrt(var + ε) · gamma + beta, 0 ).
  Here the run is stated with every array named: the result buffer ends at that term of the two arrays the call leaves
  (`prodArr`, `statArr` of what the call was given) and the arguments end unchanged.
-/
import proofs.«126886_j25967372272144_2_alg».proof.Proof.Gen.KernelIdeal.Frame
import proofs.«126886_j25967372272144_2_alg».proof.Proof.KBlocks
import Idealize.ShloMosaic.Lib.StableHlo.Run

noncomputable section

open Idealize.ShloMosaic Idealize.ShloMosaic.TcCoe Idealize.SL.Sem

namespace Cert.KernelIdeal.KV

open Idealize.ShloMosaic.ValueIdx Cert.KernelIdeal Cert.KernelIdeal.Gen

variable (m : (ℓ : Loc nD τ sig) → Buf (Elt Ideal) ℓ) (ρ : Dev nD → PrngReg)

/-- Row `s` of every tile's statistics, summed over the tiles and divided by the number of sites. -/
def tileMean (s : Fin 2) (S : FVec Ideal S20x2x256 .f32) : FVec Ideal S256 .f32 :=
  Host.divf
    (Host.reduceAdd (shapeCast S20x256 (extractStridedSlice S20x1x256 ![0, s.val, 0] S (by
        match s with
        | ⟨0, _⟩ => exact slices_S20x2x256_S20x1x256_0_0_0
        | ⟨1, _⟩ => exact slices_S20x2x256_S20x1x256_0_1_0)) shapeCasts_S20x1x256_S20x256)
      (constant (F := Ideal) S_ .f32 0x00000000#32) reducesTo_S20x256_S256_d0 h_S_)
    (broadcastInDim S256 ![] bcast_S_S256 (constant (F := Ideal) S_ .f32 0x47C35000#32))

/-- The kernel program's mean per channel. -/
def muK (S : FVec Ideal S20x2x256 .f32) : FVec Ideal S256 .f32 := tileMean 0 S

/-- The kernel program's variance per channel: the mean of the squares less the square of the mean. -/
def varK (S : FVec Ideal S20x2x256 .f32) : FVec Ideal S256 .f32 :=
  subf (tileMean 1 S) (mulf (muK S) (muK S))

/-- A per-channel vector repeated down the 100000 rows. -/
def rowsK (v : FVec Ideal S256 .f32) : FVec Ideal S100000x256 .f32 :=
  broadcastInDim S100000x256 ![0, 1] bcast_S1x256_S100000x256_0_1 (broadcastInDim S1x256 ![1] bcast_S256_S1x256_1 v)

/-- The normalisation, scale, shift and rectification of `x` by per-channel `mu`, `va`, `gamma`, `beta`. -/
def finK (x : FVec Ideal S100000x256 .f32) (mu va a2 a3 : FVec Ideal S256 .f32) : FVec Ideal S100000x256 .f32 :=
  maximumf
    (addf (mulf (mulf (subf x (rowsK mu))
      (rowsK (Host.rsqrt (addf va (broadcastInDim S256 ![] bcast_S_S256 (constant (F := Ideal) S_ .f32 0x38D1B717#32))))))
      (rowsK a2)) (rowsK a3))
    (broadcastInDim S100000x256 ![] bcast_S_S100000x256 (constant (F := Ideal) S_ .f32 0x00000000#32))

/-- What the operations after the call leave in the result buffer. -/
theorem tail_eq (c : Dev nD) :
    Pipeline.afterTail₀ cfgs (dats m) 0 (V0 m) [hostOps1, hostOps1_1] c main_v41
      = finK (prodArr (V m c main_v10) (V m c main_v12)) (muK (statArr (V m c main_v10) (V m c main_v12)))
          (varK (statArr (V m c main_v10) (V m c main_v12))) (m ((c : Thread nD τ).loc main_arg2)) (m ((c : Thread nD τ).loc main_arg3)) := by
  unfold Pipeline.afterTail₀
  simp only [hostOps1, hostOps1_1, List.flatten_cons, List.flatten_nil, List.append_nil, List.cons_append, List.nil_append]
  after_results_simp
  have e2 : Pipeline.withArrays (cfgs 0).spec c (V0 m c) (fun w => (dats m 0 c).arrAt w (cfgs 0).N) (Proc.devRef .tc main_v13_0)
      = prodArr (V m c main_v10) (V m c main_v12) :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v13_1)
      = statArr (V m c main_v10) (V m c main_v12) :=
    (Pipeline.withArrays_arr spec0 launch0.win.arr_inj c _ _ 3).trans (final3 m c)
  have ea2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  have ea3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  rw [e2, e3, ea2, ea3]
  rfl

/-- THE RUN, READ: every weakly fair execution of the kernel program ends with the result buffer at the normalised,
    rectified product array — stated over the two arrays the call was given — and the arguments unchanged. -/
theorem run : θ_run (defs (F := Ideal)) (onTc (τ := τ) (main (F := Ideal))) ⟨m, fun _ => 0, ρ⟩ fun r => ∀ c : Dev nD,
      r.2.mem ((c.tc : Thread nD τ).loc main_v41)
          = finK (prodArr (V m c main_v10) (V m c main_v12)) (muK (statArr (V m c main_v10) (V m c main_v12)))
              (varK (statArr (V m c main_v10) (V m c main_v12))) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v41 (Pipeline.mem_restRefs_of main_v41 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-- A tile-statistics mean read at channel `q`: the statistics' row `s` summed over the twenty tiles, over the number of sites. -/
theorem tileMean_apply (s : Fin 2) (S : FVec Ideal S20x2x256 .f32) (q : Fin 256) :
    tileMean s S (ix1 q) = Ideal.div (∑ t : Fin 20, S (ix3 t s q)) (Ideal.ofBits .f32 0x47C35000#32) := by
  unfold tileMean
  show Ideal.div (Ideal.hostReduceAdd reducesTo_S20x256_S256_d0 _ (Ideal.ofBits .f32 0x00000000#32) (ix1 q))
      (Ideal.ofBits .f32 0x47C35000#32) = _
  rw [Ideal.hostReduceAdd_single reducesTo_S20x256_S256_d0 (by decide : S20x256.Reduces [0] S256), Ideal.ofBits_zero_f32, zero_add]
  refine congrArg (fun z => Ideal.div z (Ideal.ofBits .f32 0x47C35000#32)) (Finset.sum_congr rfl fun t _ => ?_)
  refine (shapeCast_apply _ _ _ (ix3 t (0 : Fin 1) q) (by
    rw [Shape.rowMajor_val_three, Shape.rowMajor_val_two]
    show (t.val * 1 + 0) * 256 + q.val = t.val * 256 + q.val
    omega)).trans ?_
  refine extractStridedSlice_apply _ S _ (ix3 t (0 : Fin 1) q) (ix3 t s q) (fun a => ?_)
  match a with
  | ⟨0, _⟩ => show t.val = 0 + t.val; omega
  | ⟨1, _⟩ => show s.val = s.val + 0; omega
  | ⟨2, _⟩ => show q.val = 0 + q.val; omega

end Cert.KernelIdeal.KV

end
-- ==== Proof.Spec.lean ====
/-
  The one function both programs compute before the batch normalisation, stated over plain index types.

  A sparse convolution: output site `p` has eight rule-book entries `idx[p, k]`, one per filter offset `k`; each names a row
  of the feature table `T` (the input features with one zero row appended, which inactive entries point at), and
  `x[p, q] = Σ_k Σ_c T[row(idx[p, k]), c] · w[k, c, q]`.
  An entry is read the way an array index is read: a negative word is first moved up by the table's 400001 rows, the result
  is taken as a signed integer and clamped into the rows `0 … 400000`.
-/
import Idealize.ShloMosaic.PureOps.Ideal
import Idealize.ShloMosaic.Lib.ValueIdx

noncomputable section

namespace Cert.Spec

open Idealize.ShloMosaic Idealize.ShloMosaic.ValueIdx

/-- A rule-book word with a negative value moved up by the number of table rows (what `x[i]` does with `i < 0`). -/
def nrm (v : BitVec 32) : BitVec 32 := Scalar.select (IntOp.cmpi .slt v 0#32) (IntOp.addi v 400001#32) v

/-- The table row a rule-book word selects: the moved word read signed, clamped into `0 … 400000`. -/
def rowOf (v : BitVec 32) : Fin 400001 := ⟨min (nrm v).toInt.toNat 400000, by omega⟩

/-- The convolution's value at output site `p` and output channel `q`: over the eight filter offsets and the 128 input
    channels, the selected table row's entry times the offset's weight. -/
def raw (T : (⟨2, ![400001, 128]⟩ : Shape).Idx → EReal) (w : (⟨3, ![8, 128, 256]⟩ : Shape).Idx → EReal)
    (idx : (⟨2, ![100000, 8]⟩ : Shape).Idx → BitVec 32) (p : Fin 100000) (q : Fin 256) : EReal :=
  ∑ k : Fin 8, ∑ c : Fin 128, T (ix2 (rowOf (idx (ix2 p k))) c) * w (ix3 k c q)

end Cert.Spec

end
-- ==== Proof.LibSums.lean ====
/-
  Two facts about finite sums in a commutative monoid (used here on the extended reals, where addition is commutative
  and associative even at the infinities): a sum over `a · b` consecutive positions is the sum over `a` groups of `b`,
  and the instances for the two groupings this certificate meets — 1024 contraction positions as 8 filter offsets of 128
  channels, and 100000 rows as 20 tiles of 5000.
-/
import Idealize.ShloMosaic.Lib.ValueIdx

namespace Cert.LibSums

open scoped BigOperators

/-- Position `c` of group `k`, among `a` groups of `b`, is below `a · b`. -/
theorem block_lt {a b : Nat} (k : Fin a) (c : Fin b) : b * k.val + c.val < a * b := by
  have hk := k.isLt
  have hc := c.isLt
  have h1 : b * k.val + c.val < b * (k.val + 1) := by rw [Nat.mul_succ]; omega
  have h2 : b * (k.val + 1) ≤ b * a := Nat.mul_le_mul_left b hk
  rw [Nat.mul_comm a b]
  omega

/-- A sum over `Fin (a * b)` regrouped as `a` blocks of `b` consecutive positions. -/
theorem sum_blocks {M : Type*} [AddCommMonoid M] (a b : Nat) (f : Fin (a * b) → M) :
    ∑ j, f j = ∑ k : Fin a, ∑ c : Fin b, f ⟨b * k.val + c.val, block_lt k c⟩ := by
  rw [← Equiv.sum_comp finProdFinEquiv f, Fintype.sum_prod_type]
  refine Finset.sum_congr rfl fun k _ => Finset.sum_congr rfl fun c _ => congrArg f (Fin.ext ?_)
  simp [finProdFinEquiv, Nat.add_comm]

/-- 1024 positions as 8 groups of 128. -/
theorem sum_1024 {M : Type*} [AddCommMonoid M] (f : Fin 1024 → M) :
    ∑ j, f j = ∑ k : Fin 8, ∑ c : Fin 128, f ⟨128 * k.val + c.val, by omega⟩ :=
  sum_blocks 8 128 f

/-- 100000 rows as 20 tiles of 5000. -/
theorem sum_100000 {M : Type*} [AddCommMonoid M] (f : Fin 100000 → M) :
    ∑ p, f p = ∑ t : Fin 20, ∑ r : Fin 5000, f ⟨5000 * t.val + r.val, by omega⟩ :=
  sum_blocks 20 5000 f

end Cert.LibSums
-- ==== Proof.KEntry.lean ====
/-
  The two arrays the kernel call is given, read at an index.

  Before the call the program builds, from the features `a0`, the weights `a1` and the rule book `a4`:
    the table `T`   = `a0` with one zero row appended (a change of float format does nothing to an extended real);
    `X[p, 128·k + c]` = `T[row(a4[p, k]), c]` — the row gather, its eight selected rows laid side by side;
    `Wf[128·k + c, q]` = `a1[k, c, q]`  — the weights with their first two axes merged.
  So the product array of the call is the convolution `Cert.Spec.raw T a1 a4`.
-/
import proofs.«126886_j25967372272144_2_alg».proof.Proof.Gen.KernelIdeal.Frame
import proofs.«126886_j25967372272144_2_alg».proof.Proof.KBlocks
import proofs.«126886_j25967372272144_2_alg».proof.Proof.Spec
import proofs.«126886_j25967372272144_2_alg».proof.Proof.LibSums
import Idealize.ShloMosaic.Lib.StableHlo.Run

noncomputable section

open Idealize.ShloMosaic Idealize.ShloMosaic.TcCoe Idealize.SL.Sem

namespace Cert.KernelIdeal.KV

open Idealize.ShloMosaic.ValueIdx Cert.KernelIdeal Cert.KernelIdeal.Gen

variable (m : (ℓ : Loc nD τ sig) → Buf (Elt Ideal) ℓ)

/-- The feature table with one zero row appended. -/
def tableK (a0 : FVec Ideal S400000x128 .f32) : FVec Ideal S400001x128 .f32 :=
  concatenate S400001x128 0 [⟨S400000x128, a0⟩, ⟨S1x128, broadcastInDim S1x128 ![] bcast_S_S1x128 (constant (F := Ideal) S_ .f32 0x00000000#32)⟩]
    concatenates_S400000x128_S1x128_S400001x128_d0

/-- The rule book with its negative entries moved up by the number of table rows. -/
def nrmArr (a4 : IVec S100000x8 32) : IVec S100000x8 32 :=
  select (cmpi .slt a4 (broadcastInDim S100000x8 ![] bcast_S_S100000x8 (constantI S_ 32 0#32)))
    (addi a4 (broadcastInDim S100000x8 ![] bcast_S_S100000x8 (constantI S_ 32 400001#32))) a4

/-- The row gather's dimension numbers: one start index per (site, offset), whole rows of 128. -/
abbrev gK : GatherDims S400001x128 S100000x8x1 S100000x8x128 := gather_S400001x128_S100000x8x1_S100000x8x128_2_0_n_n_0_2_1128

/-- The row gather at result index `(p, k, c)`: the operand's row named by start index `idx[p, k, 0]`, read signed and
    clamped into the table's rows, at column `c`. -/
theorem gatherK_apply {α : Type} (x : S400001x128.Idx → α) (idx : IVec S100000x8x1 32) (p : Fin 100000) (k : Fin 8) (cc : Fin 128) :
    Host.gather gK x idx (ix3 p k cc)
      = x (ix2 (⟨min (idx (ix3 p k (0 : Fin 1))).toInt.toNat 400000, by omega⟩ : Fin 400001) cc) := by
  unfold Host.gather
  congr 1
  funext a
  refine Fin.ext ?_
  show gK.start (ix3 p k cc) idx a + gK.batchCoord (ix3 p k cc) a + gK.offCoord (ix3 p k cc) a = _
  rw [GatherDims.batchCoord_eq_zero _ _ _ List.not_mem_nil]
  have ha : a = (0 : Fin S400001x128.rank) ∨ a = (1 : Fin S400001x128.rank) := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin S400001x128.rank) ∈ gK.startIndexMap from List.mem_singleton.mpr rfl)]
    have hsi : gK.siIdx (ix3 p k cc) ⟨List.idxOf (0 : Fin S400001x128.rank) gK.startIndexMap,
        List.idxOf_lt_length_iff.2 (List.mem_singleton.mpr rfl)⟩ = ix3 p k (0 : Fin 1) := by
      funext b
      refine Fin.ext ?_
      match b with
      | ⟨0, _⟩ => rfl
      | ⟨1, _⟩ => rfl
      | ⟨2, _⟩ => rfl
    rw [hsi]
    rfl
  · unfold GatherDims.start
    rw [dif_neg (show ¬(1 : Fin S400001x128.rank) ∈ gK.startIndexMap by decide)]
    unfold GatherDims.offCoord
    rw [dif_pos (show (1 : Fin S400001x128.rank) ∈ gK.sKept by decide)]
    show 0 + 0 + cc.val = cc.val
    omega

/-- The gathered array the call is given: the table's selected rows, side by side. -/
theorem V_gathered (c : Dev nD) :
    (V m c main_v10 : S100000x1024.Idx → EReal)
      = shapeCast S100000x1024 (Host.gather gK
          (truncf .bf16 (tableK (m ((c : Thread nD τ).loc main_arg0))) bitsLt_bf16_f32)
          (broadcastInDim S100000x8x1 ![0, 1] bcast_S100000x8_S100000x8x1_0_1 (nrmArr (m ((c : Thread nD τ).loc main_arg4)))))
          shapeCasts_S100000x8x128_S100000x1024 := by
  show StableHlo.after hostOps0 (fun b => m (c, b)) (Proc.devRef .tc main_v10) = _
  after_results
  rfl

/-- The flattened weights the call is given. -/
theorem V_weights (c : Dev nD) :
    (V m c main_v12 : S1024x256.Idx → EReal)
      = (truncf (F := Ideal) .bf16 (shapeCast S1024x256 (m ((c : Thread nD τ).loc main_arg1)) shapeCasts_S8x128x256_S1024x256)
          bitsLt_bf16_f32 : S1024x256.Idx → EReal) := by
  show StableHlo.after hostOps0 (fun b => m (c, b)) (Proc.devRef .tc main_v12) = _
  after_results
  rfl

/-- A start index of the gather, at `(p, k, 0)`, is the moved rule-book word of `(p, k)`. -/
theorem idx_apply (a4 : IVec S100000x8 32) (p : Fin 100000) (k : Fin 8) :
    broadcastInDim S100000x8x1 ![0, 1] bcast_S100000x8_S100000x8x1_0_1 (nrmArr a4) (ix3 p k (0 : Fin 1))
      = Cert.Spec.nrm (a4 (ix2 p k)) := by
  refine (broadcastInDim_apply _ _ (nrmArr a4) (ix3 p k (0 : Fin 1)) (ix2 p k) (fun a => ?_)).trans rfl
  match a with
  | ⟨0, _⟩ => rfl
  | ⟨1, _⟩ => rfl

/-- The selected rows side by side, read at site `p`, position `128·k + c`: the table's row selected by `a4[p, k]`. -/
theorem gathered_apply (T : FVec Ideal S400001x128 .f32) (a4 : IVec S100000x8 32) (p : Fin 100000) (k : Fin 8) (cc : Fin 128) :
    shapeCast S100000x1024 (Host.gather gK (truncf (F := Ideal) .bf16 T bitsLt_bf16_f32)
        (broadcastInDim S100000x8x1 ![0, 1] bcast_S100000x8_S100000x8x1_0_1 (nrmArr a4)))
        shapeCasts_S100000x8x128_S100000x1024 (ix2 p (⟨128 * k.val + cc.val, by omega⟩ : Fin 1024))
      = T (ix2 (Cert.Spec.rowOf (a4 (ix2 p k))) cc) := by
  refine (shapeCast_apply _ _ (ix2 p (⟨128 * k.val + cc.val, by omega⟩ : Fin 1024)) (ix3 p k cc) (by
    rw [Shape.rowMajor_val_three, Shape.rowMajor_val_two]
    show (p.val * 8 + k.val) * 128 + cc.val = p.val * 1024 + (128 * k.val + cc.val)
    omega)).trans ?_
  refine (gatherK_apply _ _ p k cc).trans ?_
  show T (ix2 _ cc) = T (ix2 _ cc)
  refine congrArg (fun r => T (ix2 r cc)) (Fin.ext ?_)
  show min _ 400000 = min _ 400000
  rw [idx_apply]

/-- The merged weights at position `128·k + c`, channel `q`. -/
theorem merged_apply (a1 : FVec Ideal S8x128x256 .f32) (k : Fin 8) (cc : Fin 128) (q : Fin 256) :
    (truncf (F := Ideal) .bf16 (shapeCast S1024x256 a1 shapeCasts_S8x128x256_S1024x256) bitsLt_bf16_f32 : S1024x256.Idx → EReal)
        (ix2 (⟨128 * k.val + cc.val, by omega⟩ : Fin 1024) q)
      = a1 (ix3 k cc q) := by
  show shapeCast S1024x256 a1 shapeCasts_S8x128x256_S1024x256 (ix2 (⟨128 * k.val + cc.val, by omega⟩ : Fin 1024) q) = _
  exact shapeCast_apply _ _ _ (ix3 k cc q) (by
    rw [Shape.rowMajor_val_three, Shape.rowMajor_val_two]
    show (k.val * 128 + cc.val) * 256 + q.val = (128 * k.val + cc.val) * 256 + q.val
    omega)

/-- The call's product array is the convolution of the specification. -/
theorem prod_eq_raw (c : Dev nD) (p : Fin 100000) (q : Fin 256) :
    prodAt (V m c main_v10) (V m c main_v12) p q
      = Cert.Spec.raw (tableK (m ((c : Thread nD τ).loc main_arg0))) (m ((c : Thread nD τ).loc main_arg1))
          (m ((c : Thread nD τ).loc main_arg4)) p q := by
  unfold prodAt Cert.Spec.raw
  rw [Cert.LibSums.sum_1024, V_gathered, V_weights]
  refine Finset.sum_congr rfl fun k _ => Finset.sum_congr rfl fun cc _ => ?_
  rw [gathered_apply, merged_apply]

end Cert.KernelIdeal.KV

end
-- ==== Proof.SpecReal.lean ====
/-
  The convolution of real tables is real: when every entry of the table and of the weights is a real number (no infinity),
  each value `Cert.Spec.raw T w idx p q` is the real double sum of the real products. This is what lets the variance
  identity, a law of the reals that fails at the infinities, be used on the convolution's values.
-/
import proofs.«126886_j25967372272144_2_alg».proof.Proof.Spec

noncomputable section

namespace Cert.Spec

open Idealize.ShloMosaic Idealize.ShloMosaic.ValueIdx

/-- The inclusion of the reals in the extended reals carries finite sums to finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- With real entries in the table and the weights, every value of the convolution is real. -/
theorem raw_real (T : (⟨2, ![400001, 128]⟩ : Shape).Idx → EReal) (w : (⟨3, ![8, 128, 256]⟩ : Shape).Idx → EReal)
    (idx : (⟨2, ![100000, 8]⟩ : Shape).Idx → BitVec 32)
    (hT : ∀ i, ∃ r : ℝ, T i = (r : EReal)) (hw : ∀ i, ∃ r : ℝ, w i = (r : EReal)) (p : Fin 100000) (q : Fin 256) :
    ∃ r : ℝ, raw T w idx p q = (r : EReal) := by
  choose tr htr using hT
  choose wr hwr using hw
  refine ⟨∑ k : Fin 8, ∑ c : Fin 128, tr (ix2 (rowOf (idx (ix2 p k))) c) * wr (ix3 k c q), ?_⟩
  unfold raw
  rw [coe_sum]
  refine Finset.sum_congr rfl fun k _ => ?_
  rw [coe_sum]
  refine Finset.sum_congr rfl fun c _ => ?_
  rw [htr, hwr, EReal.coe_mul]

end Cert.Spec

end
-- ==== Proof.RefDefs.lean ====
/-
  The reference program's values as functions of its arguments, by name: the feature table with its zero row, one
  accumulation step and the eight of them (`acc`), the column mean, the column variance, and the normalised, scaled,
  shifted and rectified result. Each is the composition of the operations the program prints for it, in the printed
  spelling, at the ideal instance.
-/
import proofs.«126886_j25967372272144_2_alg».proof.ReferenceIdeal
import proofs.«126886_j25967372272144_2_alg».proof.Proof.Gen.ReferenceIdeal
import Idealize.ShloMosaic.Lib.ValueIdx

noncomputable section

namespace Cert.ReferenceIdeal.RefValue

open Idealize.ShloMosaic Idealize.ShloMosaic.ValueIdx Cert.ReferenceIdeal Cert.ReferenceIdeal.Gen

/-- The feature table with one zero row appended (%1's term). -/
def table (a0 : FVec Ideal S400000x128 .f32) : FVec Ideal S400001x128 .f32 :=
  concatenate S400001x128 0 [⟨S400000x128, a0⟩, ⟨S1x128, broadcastInDim S1x128 ![] bcast_S_S1x128 (constant (F := Ideal) S_ .f32 0x00000000#32)⟩]
    concatenates_S400000x128_S1x128_S400001x128_d0

/-- The zero accumulator (%2's term). -/
def zeros : FVec Ideal S100000x256 .f32 :=
  broadcastInDim S100000x256 ![] bcast_S_S100000x256 (constant (F := Ideal) S_ .f32 0x00000000#32)

/-- Column `k` of the rule book as a vector: the slice `[0:100000, k:k+1]` reshaped to `[100000]`. -/
def col (a4 : IVec S100000x8 32) (k : Nat) (ho : S100000x8.Slices ![0, k] S100000x1) : IVec S100000 32 :=
  shapeCast S100000 (extractStridedSlice S100000x1 ![0, k] a4 ho) shapeCasts_S100000x1_S100000

/-- A column of row numbers with the negative ones moved up by the table's height: compare with zero, add 400001, select. -/
def nrmCol (v : IVec S100000 32) : IVec S100000 32 :=
  select (cmpi .slt v (broadcastInDim S100000 ![] bcast_S_S100000 (constantI S_ 32 0#32)))
    (addi v (broadcastInDim S100000 ![] bcast_S_S100000 (constantI S_ 32 400001#32))) v

/-- The table's rows at a column of row numbers: the numbers as a `[100000, 1]` array of start indices, gathered. -/
def rows (T : FVec Ideal S400001x128 .f32) (v : IVec S100000 32) : FVec Ideal S100000x128 .f32 :=
  Host.gather gather_S400001x128_S100000x1_S100000x128_1_0_n_n_0_1_1128 T (broadcastInDim S100000x1 ![0] bcast_S100000_S100000x1_0 v)

/-- Slice `k` of the weights as a matrix: the slice `[k:k+1, 0:128, 0:256]` reshaped to `[128, 256]`. -/
def wk (a1 : FVec Ideal S8x128x256 .f32) (k : Nat) (ho : S8x128x256.Slices ![k, 0, 0] S1x128x256) : FVec Ideal S128x256 .f32 :=
  shapeCast S128x256 (extractStridedSlice S1x128x256 ![k, 0, 0] a1 ho) shapeCasts_S1x128x256_S128x256

/-- One accumulation step: the rows of the table at column `k` of the rule book, times slice `k` of the weights,
    added to what was accumulated. -/
def step (T : FVec Ideal S400001x128 .f32) (a1 : FVec Ideal S8x128x256 .f32) (a4 : IVec S100000x8 32) (k : Nat)
    (ho : S100000x8.Slices ![0, k] S100000x1) (ho' : S8x128x256.Slices ![k, 0, 0] S1x128x256)
    (prev : FVec Ideal S100000x256 .f32) : FVec Ideal S100000x256 .f32 :=
  addf prev (Host.dotGeneral dot_S100000x128_S128x256_S100000x256_1_0_0_1_n_n none (rows T (nrmCol (col a4 k ho))) (wk a1 k ho'))

/-- %106's value: the eight steps from the zero accumulator, over the table of `a0`. -/
def acc (a0 : FVec Ideal S400000x128 .f32) (a1 : FVec Ideal S8x128x256 .f32) (a4 : IVec S100000x8 32) : FVec Ideal S100000x256 .f32 :=
  step (table a0) a1 a4 7 slices_S100000x8_S100000x1_0_7 slices_S8x128x256_S1x128x256_7_0_0
    (step (table a0) a1 a4 6 slices_S100000x8_S100000x1_0_6 slices_S8x128x256_S1x128x256_6_0_0
    (step (table a0) a1 a4 5 slices_S100000x8_S100000x1_0_5 slices_S8x128x256_S1x128x256_5_0_0
    (step (table a0) a1 a4 4 slices_S100000x8_S100000x1_0_4 slices_S8x128x256_S1x128x256_4_0_0
    (step (table a0) a1 a4 3 slices_S100000x8_S100000x1_0_3 slices_S8x128x256_S1x128x256_3_0_0
    (step (table a0) a1 a4 2 slices_S100000x8_S100000x1_0_2 slices_S8x128x256_S1x128x256_2_0_0
    (step (table a0) a1 a4 1 slices_S100000x8_S100000x1_0_1 slices_S8x128x256_S1x128x256_1_0_0
    (step (table a0) a1 a4 0 slices_S100000x8_S100000x1_0_0 slices_S8x128x256_S1x128x256_0_0_0
    (zeros))))))))

/-- %109 over x = %106: the column sums divided by the number of rows. -/
def mean (x : FVec Ideal S100000x256 .f32) : FVec Ideal S256 .f32 :=
  Host.divf (F := Ideal) (Host.reduceAdd (F := Ideal) x (constant (F := Ideal) S_ .f32 0x00000000#32) reducesTo_S100000x256_S256_d0 h_S_)
    (broadcastInDim S256 ![] bcast_S_S256 (constant (F := Ideal) S_ .f32 0x47C35000#32))

/-- @_var's %5 over its first argument x: x minus its column mean, the mean kept as a `[1, 256]` row and broadcast. -/
def cen (x : FVec Ideal S100000x256 .f32) : FVec Ideal S100000x256 .f32 :=
  subf x (broadcastInDim S100000x256 ![0, 1] bcast_S1x256_S100000x256_0_1
    (Host.divf (F := Ideal)
      (broadcastInDim S1x256 ![1] bcast_S256_S1x256_1
        (Host.reduceAdd (F := Ideal) x (constant (F := Ideal) S_ .f32 0x00000000#32) reducesTo_S100000x256_S256_d0 h_S_))
      (broadcastInDim S1x256 ![] bcast_S_S1x256 (constant (F := Ideal) S_ .f32 0x47C35000#32))))

/-- @_var's %8 at its second argument the printed constant zero: the number of rows minus the converted zero. -/
def den : FVec Ideal S_ .f32 :=
  subf (constant (F := Ideal) S_ .f32 0x47C35000#32) (sitofp .f32 (constantI S_ 32 0#32))

/-- %110 over x = %106: @_var's operations composed, with @_where's three at its call — the centred squares' column sums
    over `den`, selected against the printed not-a-number constant by the comparison `den > 0`. -/
def var (x : FVec Ideal S100000x256 .f32) : FVec Ideal S256 .f32 :=
  select (broadcastInDim S256 ![] bcast_S_S256 (cmpf .ogt den (constant (F := Ideal) S_ .f32 0x00000000#32)))
    (Host.divf (F := Ideal)
      (Host.reduceAdd (F := Ideal) (mulf (cen x) (cen x)) (constant (F := Ideal) S_ .f32 0x00000000#32) reducesTo_S100000x256_S256_d0 h_S_)
      (broadcastInDim S256 ![] bcast_S_S256 den))
    (broadcastInDim S256 ![] bcast_S_S256 (id (constant (F := Ideal) S_ .f32 0x7FC00000#32)))

/-- A `[256]` vector as every row of a `[100000, 256]` array: first a `[1, 256]` row, then broadcast. -/
def rowsOf (v : FVec Ideal S256 .f32) : FVec Ideal S100000x256 .f32 :=
  broadcastInDim S100000x256 ![0, 1] bcast_S1x256_S100000x256_0_1 (broadcastInDim S1x256 ![1] bcast_S256_S1x256_1 v)

/-- %126 over x = %106, mu = %109, va = %110 and the two arguments: the printed operations %111 … %125 and @relu's three. -/
def fin (x : FVec Ideal S100000x256 .f32) (mu va a2 a3 : FVec Ideal S256 .f32) : FVec Ideal S100000x256 .f32 :=
  maximumf
    (addf
      (mulf
        (mulf (subf x (rowsOf mu))
          (rowsOf (Host.rsqrt (F := Ideal) (addf va (broadcastInDim S256 ![] bcast_S_S256 (constant (F := Ideal) S_ .f32 0x38D1B717#32))))))
        (rowsOf a2))
      (rowsOf a3))
    (broadcastInDim S100000x256 ![] bcast_S_S100000x256 (constant (F := Ideal) S_ .f32 0x00000000#32))

end Cert.ReferenceIdeal.RefValue

end
-- ==== Proof.RefAcc.lean ====
/-
  The accumulator read at an index: entry (p, q) of the eight accumulated products is the double sum, over the eight
  filter offsets and the 128 input channels, of the table's entry in the row the rule book names times the weight.

  One step is read once, for any offset `k`: the sum of the previous accumulator's entry and the product's, the product of
  the gathered rows by the weight slice being the sum over the contracted channel; the gathered row of site `p` is the
  table's row at the start index of `p`, read signed and clamped to the table's height; the start index is the rule book's
  entry (p, k) with a negative value moved up by the height.
-/
import proofs.«126886_j25967372272144_2_alg».proof.Proof.RefDefs
import proofs.«126886_j25967372272144_2_alg».proof.Proof.Spec
import Idealize.ShloMosaic.Lib.ValueLayout
import Idealize.ShloMosaic.Lib.StackMember

noncomputable section

open scoped BigOperators

namespace Cert.ReferenceIdeal.RefValue

open Idealize.ShloMosaic Idealize.ShloMosaic.ValueIdx Cert.ReferenceIdeal Cert.ReferenceIdeal.Gen

/-! ## The gather of rows -/

/-- The table row a start index names: the word read signed, clamped into the rows `0 … 400000`. -/
def rowAt (w : BitVec 32) : Fin 400001 := ⟨min w.toInt.toNat 400000, by omega⟩

/-- The row the specification selects is the row the moved word names. -/
theorem rowOf_eq (v : BitVec 32) : Cert.Spec.rowOf v = rowAt (Cert.Spec.nrm v) := rfl

/-- The gather of whole rows read at (p, c): the operand at the row the start index (p, 0) names — read signed, clamped
    into the rows `0 … 400000` — and column c. -/
theorem gather_rows_apply {α : Type} (T : S400001x128.Idx → α) (idx : IVec S100000x1 32) (p : Fin 100000) (c : Fin 128) :
    Host.gather gather_S400001x128_S100000x1_S100000x128_1_0_n_n_0_1_1128 T idx (ix2 p c)
      = T (ix2 (rowAt (idx (ix2 p (0 : Fin 1)))) c) := by
  unfold Host.gather
  congr 1
  funext a
  refine Fin.ext ?_
  match a with
  | ⟨0, _⟩ =>
    show gather_S400001x128_S100000x1_S100000x128_1_0_n_n_0_1_1128.start (ix2 p c) idx 0 + gather_S400001x128_S100000x1_S100000x128_1_0_n_n_0_1_1128.batchCoord (ix2 p c) 0 + gather_S400001x128_S100000x1_S100000x128_1_0_n_n_0_1_1128.offCoord (ix2 p c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S400001x128_S100000x1_S100000x128_1_0_n_n_0_1_1128.startIndexMap from List.mem_singleton.mpr rfl)]
    have hsi : gather_S400001x128_S100000x1_S100000x128_1_0_n_n_0_1_1128.siIdx (ix2 p c) ⟨List.idxOf (0 : Fin 2) gather_S400001x128_S100000x1_S100000x128_1_0_n_n_0_1_1128.startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show gather_S400001x128_S100000x1_S100000x128_1_0_n_n_0_1_1128.start (ix2 p c) idx 1 + gather_S400001x128_S100000x1_S100000x128_1_0_n_n_0_1_1128.batchCoord (ix2 p c) 1 + gather_S400001x128_S100000x1_S100000x128_1_0_n_n_0_1_1128.offCoord (ix2 p c) 1 = _
    rw [GatherDims.batchCoord_eq_zero _ _ _ List.not_mem_nil]
    unfold GatherDims.start
    rw [dif_neg (show (1 : Fin 2) ∉ gather_S400001x128_S100000x1_S100000x128_1_0_n_n_0_1_1128.startIndexMap from by decide)]
    simp only [Nat.add_zero, Nat.zero_add]
    unfold GatherDims.offCoord
    rw [dif_pos (show (1 : Fin 2) ∈ gather_S400001x128_S100000x1_S100000x128_1_0_n_n_0_1_1128.sKept from by decide)]
    rfl

/-! ## The pieces of one step, at an index -/

/-- Column `k` of the rule book at site p. -/
theorem col_apply (a4 : IVec S100000x8 32) (k : Nat) (hk : k < 8) (ho : S100000x8.Slices ![0, k] S100000x1) (p : Fin 100000) :
    col a4 k ho (ix1 p) = a4 (ix2 p (⟨k, hk⟩ : Fin 8)) := by
  unfold col
  refine (shapeCast_apply _ _ (ix1 p) (ix2 p (0 : Fin 1)) ?_).trans ?_
  · rw [Shape.rowMajor_val_two, Shape.rowMajor_val_one]
    show p.val * 1 + 0 = p.val
    omega
  · exact slice2_axis1_apply k a4 ho p (0 : Fin 1) ⟨k, hk⟩ rfl

/-- The moved column at an index is the moved word. -/
theorem nrmCol_apply (v : IVec S100000 32) (i : S100000.Idx) : nrmCol v i = Cert.Spec.nrm (v i) := rfl

/-- The gathered rows at (p, c): the table's row the word of site p selects. -/
theorem rows_apply (T : FVec Ideal S400001x128 .f32) (v : IVec S100000 32) (p : Fin 100000) (c : Fin 128) :
    rows T v (ix2 p c) = T (ix2 (rowAt (v (ix1 p))) c) := by
  unfold rows
  rw [gather_rows_apply]
  rw [broadcastInDim_apply ![0] bcast_S100000_S100000x1_0 v (ix2 p (0 : Fin 1)) (ix1 p) (fun a => by
    match a with
    | ⟨0, _⟩ => rfl)]

/-- Slice `k` of the weights at (c, q). -/
theorem wk_apply (a1 : FVec Ideal S8x128x256 .f32) (k : Nat) (hk : k < 8) (ho : S8x128x256.Slices ![k, 0, 0] S1x128x256)
    (c : Fin 128) (q : Fin 256) : wk a1 k ho (ix2 c q) = a1 (ix3 (⟨k, hk⟩ : Fin 8) c q) := by
  unfold wk
  rw [shapeCast_1ab_ab_apply]
  exact extractStridedSlice_apply _ _ _ _ _ (fun a => by
    match a with
    | ⟨0, _⟩ => rfl
    | ⟨1, _⟩ => exact (Nat.zero_add _).symm
    | ⟨2, _⟩ => exact (Nat.zero_add _).symm)

/-! ## One step, and the eight -/

/-- One step at (p, q): the previous entry plus the sum over the 128 channels of the selected table row's entry times
    the weight. -/
theorem step_apply (T : FVec Ideal S400001x128 .f32) (a1 : FVec Ideal S8x128x256 .f32) (a4 : IVec S100000x8 32) (k : Nat) (hk : k < 8)
    (ho : S100000x8.Slices ![0, k] S100000x1) (ho' : S8x128x256.Slices ![k, 0, 0] S1x128x256)
    (prev : FVec Ideal S100000x256 .f32) (p : Fin 100000) (q : Fin 256) :
    step T a1 a4 k ho ho' prev (ix2 p q)
      = prev (ix2 p q) + ∑ c : Fin 128, T (ix2 (Cert.Spec.rowOf (a4 (ix2 p (⟨k, hk⟩ : Fin 8)))) c) * a1 (ix3 (⟨k, hk⟩ : Fin 8) c q) := by
  unfold step
  rw [addf_apply]
  congr 1
  have hd : Host.dotGeneral dot_S100000x128_S128x256_S100000x256_1_0_0_1_n_n none (rows T (nrmCol (col a4 k ho))) (wk a1 k ho') (ix2 p q)
      = Host.dotGeneral (DotDims.plain 100000 128 256) none (rows T (nrmCol (col a4 k ho))) (wk a1 k ho') (ix2 p q) := rfl
  rw [hd, StackMember.dotGeneral_plain_apply]
  refine Finset.sum_congr rfl fun c _ => ?_
  rw [rows_apply, wk_apply a1 k hk, nrmCol_apply, col_apply a4 k hk, rowOf_eq]

/-- The zero accumulator's entries are zero. -/
theorem zeros_apply (j : S100000x256.Idx) : zeros j = 0 := by
  unfold zeros
  show Ideal.ofBits .f32 0x00000000#32 = 0
  exact Ideal.ofBits_zero_f32

/-- The accumulator read at an index: the zero start and the eight products' entries are the double sum. -/
theorem acc_apply (a0 : FVec Ideal S400000x128 .f32) (a1 : FVec Ideal S8x128x256 .f32) (a4 : IVec S100000x8 32) (p : Fin 100000) (q : Fin 256) :
    acc a0 a1 a4 (ix2 p q) = Cert.Spec.raw (table a0) a1 a4 p q := by
  unfold acc Cert.Spec.raw
  rw [step_apply _ _ _ 7 (by decide), step_apply _ _ _ 6 (by decide), step_apply _ _ _ 5 (by decide), step_apply _ _ _ 4 (by decide),
    step_apply _ _ _ 3 (by decide), step_apply _ _ _ 2 (by decide), step_apply _ _ _ 1 (by decide), step_apply _ _ _ 0 (by decide),
    zeros_apply, zero_add, Fin.sum_univ_eight]
  rfl

end Cert.ReferenceIdeal.RefValue

end
-- ==== Proof.RefStat.lean ====
/-
  The column mean and the column variance read at an index, as plain sums.

  The mean of column q is the sum of the column divided by the number of rows N = 100000. The variance the program
  computes is the sum of the centred squares divided by N − 0, selected because N − 0 > 0; over real entries it is the
  mean of the squares minus the square of the mean: with μ = Σx/N,
  Σ(x − μ)² = Σx² − 2μΣx + Nμ² = Σx² − Nμ².
-/
import proofs.«126886_j25967372272144_2_alg».proof.Proof.RefDefs
import Idealize.ShloMosaic.Lib.ValueLayout
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen

/-! ## Constants -/

/-- The pattern 0x47C35000 denotes the real 100000. -/
theorem ofBits_1e5 : Ideal.ofBits .f32 0x47C35000#32 = ((100000 : ℝ) : EReal) := by
  simp [Ideal.ofBits, Ideal.ieee, -EReal.coe_mul]; norm_num

/-- A finite sum of reals, each read as an extended real, is the sum read as an extended real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## The column sums -/

/-- The reduction over the rows, from the zero initial value, at column q: the column's sum. -/
theorem colSum_apply (x : FVec Ideal S100000x256 .f32) (q : Fin 256) :
    Host.reduceAdd (F := Ideal) x (constant (F := Ideal) S_ .f32 0x00000000#32) reducesTo_S100000x256_S256_d0 h_S_ (ix1 q)
      = ∑ p : Fin 100000, x (ix2 p q) := by
  have hR : S100000x256.Reduces [0] S256 := by decide
  show Ideal.hostReduceAdd reducesTo_S100000x256_S256_d0 x (Ideal.ofBits .f32 0x00000000#32) (ix1 q) = _
  rw [Ideal.hostReduceAdd_single reducesTo_S100000x256_S256_d0 hR, Ideal.ofBits_zero_f32, zero_add]
  refine Finset.sum_congr rfl fun p _ => congrArg x ?_
  funext c
  refine Fin.ext ?_
  match c with
  | ⟨0, _⟩ => rfl
  | ⟨1, _⟩ => rfl

/-- The mean of column q: the column's sum over the number of rows. -/
theorem mean_apply (x : FVec Ideal S100000x256 .f32) (q : Fin 256) :
    mean x (ix1 q) = Ideal.div (∑ p : Fin 100000, x (ix2 p q)) (Ideal.ofBits .f32 0x47C35000#32) := by
  unfold mean
  show Ideal.div (Host.reduceAdd (F := Ideal) x (constant (F := Ideal) S_ .f32 0x00000000#32) reducesTo_S100000x256_S256_d0 h_S_ (ix1 q))
    (Ideal.ofBits .f32 0x47C35000#32) = _
  rw [colSum_apply]

/-! ## The centred entries and the divisor -/

/-- A centred entry: the entry minus its column's sum over the number of rows. -/
theorem cen_apply (x : FVec Ideal S100000x256 .f32) (p : Fin 100000) (q : Fin 256) :
    cen x (ix2 p q) = x (ix2 p q) - Ideal.div (∑ p' : Fin 100000, x (ix2 p' q)) (Ideal.ofBits .f32 0x47C35000#32) := by
  unfold cen
  rw [subf_apply]
  refine congrArg (fun z : EReal => x (ix2 p q) - z) ?_
  rw [broadcastInDim_apply ![0, 1] bcast_S1x256_S100000x256_0_1 _ (ix2 p q) (ix2 (0 : Fin 1) q) (fun a => by
    match a with
    | ⟨0, _⟩ => rfl
    | ⟨1, _⟩ => rfl)]
  show Ideal.div (broadcastInDim S1x256 ![1] bcast_S256_S1x256_1
      (Host.reduceAdd (F := Ideal) x (constant (F := Ideal) S_ .f32 0x00000000#32) reducesTo_S100000x256_S256_d0 h_S_) (ix2 (0 : Fin 1) q))
    (Ideal.ofBits .f32 0x47C35000#32) = _
  rw [broadcastInDim_apply ![1] bcast_S256_S1x256_1 _ (ix2 (0 : Fin 1) q) (ix1 q) (fun a => by
    match a with
    | ⟨0, _⟩ => rfl), colSum_apply]

/-- The divisor: the number of rows minus the converted zero word, the real 100000. -/
theorem den_apply (j : S_.Idx) : den j = ((100000 : ℝ) : EReal) := by
  unfold den
  show Ideal.ofBits .f32 0x47C35000#32 - (((0#32 : BitVec 32).toInt : ℝ) : EReal) = _
  rw [ofBits_1e5]
  have h0 : (0#32 : BitVec 32).toInt = 0 := by decide
  rw [h0, Int.cast_zero, EReal.coe_zero, sub_zero]

/-- The variance of column q as the program computes it: the centred squares' sum over the number of rows. -/
theorem var_read (x : FVec Ideal S100000x256 .f32) (q : Fin 256) :
    var x (ix1 q)
      = Ideal.div (∑ p : Fin 100000, cen x (ix2 p q) * cen x (ix2 p q)) ((100000 : ℝ) : EReal) := by
  unfold var
  rw [select_apply]
  have hc : broadcastInDim S256 ![] bcast_S_S256 (cmpf .ogt den (constant (F := Ideal) S_ .f32 0x00000000#32)) (ix1 q) = 1#1 := by
    show Ideal.cmp .ogt (den _) (Ideal.ofBits .f32 0x00000000#32) = 1#1
    rw [den_apply, Ideal.ofBits_zero_f32]
    show BitVec.ofBool (decide ((0 : EReal) < ((100000 : ℝ) : EReal))) = 1#1
    rw [decide_eq_true (by exact_mod_cast (by norm_num : (0 : ℝ) < 100000))]
    rfl
  rw [hc, select_one]
  show Ideal.div (Host.reduceAdd (F := Ideal) (mulf (cen x) (cen x)) (constant (F := Ideal) S_ .f32 0x00000000#32)
      reducesTo_S100000x256_S256_d0 h_S_ (ix1 q)) (den _) = _
  rw [colSum_apply, den_apply]
  rfl

/-! ## The variance over real entries -/

/-- Over real entries the variance of column q is the mean of the squares minus the square of the mean. -/
theorem var_apply (x : FVec Ideal S100000x256 .f32) (xr : Fin 100000 → Fin 256 → ℝ)
    (hx : ∀ p q, x (ix2 p q) = ((xr p q : ℝ) : EReal)) (q : Fin 256) :
    var x (ix1 q) = Ideal.div (∑ p : Fin 100000, x (ix2 p q) * x (ix2 p q)) (Ideal.ofBits .f32 0x47C35000#32)
        - Ideal.div (∑ p : Fin 100000, x (ix2 p q)) (Ideal.ofBits .f32 0x47C35000#32)
          * Ideal.div (∑ p : Fin 100000, x (ix2 p q)) (Ideal.ofBits .f32 0x47C35000#32) := by
  have hN : (100000 : ℝ) ≠ 0 := by norm_num
  have hS1 : ∑ p : Fin 100000, x (ix2 p q) = ((∑ p : Fin 100000, xr p q : ℝ) : EReal) := by
    rw [← coe_sum]; exact Finset.sum_congr rfl fun p _ => hx p q
  have hS2 : ∑ p : Fin 100000, x (ix2 p q) * x (ix2 p q) = ((∑ p : Fin 100000, xr p q * xr p q : ℝ) : EReal) := by
    rw [← coe_sum]; exact Finset.sum_congr rfl fun p _ => by rw [hx p q, EReal.coe_mul]
  -- the mean as a real
  set m : ℝ := (∑ p : Fin 100000, xr p q) * (1 / 100000) with hm
  have hmu : Ideal.div (∑ p : Fin 100000, x (ix2 p q)) (Ideal.ofBits .f32 0x47C35000#32) = ((m : ℝ) : EReal) := by
    rw [ofBits_1e5, Ideal.div_coe hN, hS1, ← EReal.coe_mul]
  have hcen : ∀ p : Fin 100000, cen x (ix2 p q) * cen x (ix2 p q) = (((xr p q - m) * (xr p q - m) : ℝ) : EReal) := by
    intro p
    rw [cen_apply, hmu, hx p q, ← EReal.coe_sub, ← EReal.coe_mul]
  have hS3 : ∑ p : Fin 100000, cen x (ix2 p q) * cen x (ix2 p q)
      = ((∑ p : Fin 100000, (xr p q - m) * (xr p q - m) : ℝ) : EReal) := by
    rw [← coe_sum]; exact Finset.sum_congr rfl fun p _ => hcen p
  rw [var_read, hS3, hmu, ofBits_1e5, Ideal.div_coe hN, Ideal.div_coe hN, hS2, ← EReal.coe_mul, ← EReal.coe_mul, ← EReal.coe_mul,
    ← EReal.coe_sub]
  refine congrArg (fun r : ℝ => (r : EReal)) ?_
  -- the identity over the reals
  have hexp : ∀ p : Fin 100000, (xr p q - m) * (xr p q - m) = xr p q * xr p q - 2 * m * xr p q + m * m := fun p => by ring
  simp_rw [hexp]
  rw [Finset.sum_add_distrib, Finset.sum_sub_distrib, ← Finset.mul_sum, Finset.sum_const, Finset.card_univ, Fintype.card_fin,
    nsmul_eq_mul]
  have hs : (∑ p : Fin 100000, xr p q) = 100000 * m := by rw [hm]; field_simp
  rw [hs]
  push_cast
  field_simp
  ring

end Cert.ReferenceIdeal.RefValue

end
-- ==== Proof.Bridge.lean ====
/-
  The two programs compute one function.

  Both take the convolution `x = Cert.Spec.raw T a1 a4` (the kernel as one product over the 1024 merged positions, the
  reference as eight products of 128 accumulated from zero). The reference then takes the column mean and the column
  variance of `x` directly; the kernel program takes them from per-tile sums: the sum over 100000 rows is the sum over the 20
  tiles of the sum over each tile's 5000 rows, for `x` and for its squares, and the mean of the squares less the square of
  the mean is the mean of the squared deviations — a law of the reals, used where every entry of `x` is a real number.
  The normalisation, scale, shift and rectification after that are the same operations in both programs.
-/
import proofs.«126886_j25967372272144_2_alg».proof.Proof.KEntry
import proofs.«126886_j25967372272144_2_alg».proof.Proof.KRun
import proofs.«126886_j25967372272144_2_alg».proof.Proof.LibSums
import proofs.«126886_j25967372272144_2_alg».proof.Proof.RefAcc
import proofs.«126886_j25967372272144_2_alg».proof.Proof.RefStat

noncomputable section

open Idealize.ShloMosaic Idealize.ShloMosaic.TcCoe Idealize.SL.Sem

namespace Cert.Bridge

open Idealize.ShloMosaic.ValueIdx Cert.KernelIdeal Cert.KernelIdeal.Gen Cert.KernelIdeal.KV
open Cert.ReferenceIdeal.RefValue

variable (m : (ℓ : Loc nD τ sig) → Buf (Elt Ideal) ℓ)

/-- The kernel program's table is the reference's: the same features, the same zero row. -/
theorem table_eq (a0 : FVec Ideal S400000x128 .f32) : tableK a0 = table a0 := rfl

/-- The product array the call leaves is the reference's accumulator: both are the convolution. -/
theorem prod_eq_acc (c : Dev nD) :
    prodArr (V m c main_v10) (V m c main_v12)
      = acc (m ((c : Thread nD τ).loc main_arg0)) (m ((c : Thread nD τ).loc main_arg1)) (m ((c : Thread nD τ).loc main_arg4)) := by
  funext i
  obtain ⟨p, q, rfl⟩ : ∃ (p : Fin 100000) (q : Fin 256), i = ix2 p q := ⟨i 0, i 1, eq_ix2 i⟩
  show prodAt _ _ p q = _
  rw [prod_eq_raw, acc_apply, table_eq]

/-- The tiles' column sums, summed over the tiles, are the column sums over all rows. -/
theorem tile_sums (X : S100000x1024.Idx → EReal) (Wf : S1024x256.Idx → EReal) (q : Fin 256) :
    ∑ t : Fin 20, statArr X Wf (ix3 t (0 : Fin 2) q) = ∑ p : Fin 100000, prodArr X Wf (ix2 p q) := by
  rw [Cert.LibSums.sum_100000]
  refine Finset.sum_congr rfl fun t _ => ?_
  show statAt X Wf t 0 q = _
  unfold statAt
  rw [if_pos (show ((0 : Fin 2) : ℕ) = 0 from rfl)]
  rfl

/-- The same for the squares. -/
theorem tile_sumsq (X : S100000x1024.Idx → EReal) (Wf : S1024x256.Idx → EReal) (q : Fin 256) :
    ∑ t : Fin 20, statArr X Wf (ix3 t (1 : Fin 2) q) = ∑ p : Fin 100000, prodArr X Wf (ix2 p q) * prodArr X Wf (ix2 p q) := by
  rw [Cert.LibSums.sum_100000]
  refine Finset.sum_congr rfl fun t _ => ?_
  show statAt X Wf t 1 q = _
  unfold statAt
  rw [if_neg (show ¬((1 : Fin 2) : ℕ) = 0 by decide)]
  rfl

/-- The kernel program's mean is the reference's mean of the product array. -/
theorem mu_eq (X : S100000x1024.Idx → EReal) (Wf : S1024x256.Idx → EReal) :
    muK (statArr X Wf) = mean (prodArr X Wf) := by
  funext j
  obtain ⟨q, rfl⟩ : ∃ q : Fin 256, j = ix1 q := ⟨j 0, eq_ix1 j⟩
  unfold muK
  rw [tileMean_apply, tile_sums, mean_apply]

/-- Where every entry of the product array is a real number, the kernel program's variance (the mean of the squares less
    the square of the mean) is the reference's (the mean of the squared deviations). -/
theorem var_eq (X : S100000x1024.Idx → EReal) (Wf : S1024x256.Idx → EReal) (xr : Fin 100000 → Fin 256 → ℝ)
    (hx : ∀ p q, prodArr X Wf (ix2 p q) = ((xr p q : ℝ) : EReal)) :
    varK (statArr X Wf) = var (prodArr X Wf) := by
  funext j
  obtain ⟨q, rfl⟩ : ∃ q : Fin 256, j = ix1 q := ⟨j 0, eq_ix1 j⟩
  show tileMean 1 (statArr X Wf) (ix1 q) - muK (statArr X Wf) (ix1 q) * muK (statArr X Wf) (ix1 q) = _
  unfold muK
  rw [tileMean_apply, tileMean_apply, tile_sums, tile_sumsq, var_apply _ xr hx]

/-- The last operations are the same in both programs. -/
theorem fin_eq (x : FVec Ideal S100000x256 .f32) (mu va a2 a3 : FVec Ideal S256 .f32) : finK x mu va a2 a3 = fin x mu va a2 a3 := rfl

end Cert.Bridge

end
-- ==== Proof.RefOps.lean ====
/-
  The reference program's @main as lists of its host operations, and its run read back: every weakly fair execution
  terminates with each buffer at the fold of the operations' results over the launch contents.

  The 172 operations (150 statements of @main, the calls of @_var, of the @_where inside it and of @relu replaced by
  the callee's lines over the call's own buffers) are listed in consecutive pieces that follow the computation:
  `pre` (the table and the zero accumulator), `s0 … s7` (one accumulation step each, fifteen operations), `tl`
  (the statistics and the normalisation). The printed windows cut steps 3 and 7 after their tenth operation, whence
  `s3a`, `s3b`, `s7a`, `s7b`.
-/
import proofs.«126886_j25967372272144_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The table (the features with a zero row appended) and the zero accumulator: five operations. -/
abbrev pre : List (HloOp τ sig (Elt F)) :=
  [ StableHlo.nullary main_cst (constant S_ .f32 0x00000000#32),
    StableHlo.unary main_cst main_v0 (broadcastInDim S1x128 ![] bcast_S_S1x128 : (⟨S_, .f32⟩ : BufTy).Contents (Elt F) → (⟨S1x128, .f32⟩ : BufTy).Contents (Elt F)),
    StableHlo.binary main_arg0 main_v0 main_v1 ((fun a b => concatenate S400001x128 0 [⟨S400000x128, a⟩, ⟨S1x128, b⟩] concatenates_S400000x128_S1x128_S400001x128_d0) : (⟨S400000x128, .f32⟩ : BufTy).Contents (Elt F) → (⟨S1x128, .f32⟩ : BufTy).Contents (Elt F) → (⟨S400001x128, .f32⟩ : BufTy).Contents (Elt F)),
    StableHlo.nullary main_cst_0 (constant S_ .f32 0x00000000#32),
    StableHlo.unary main_cst_0 main_v2 (broadcastInDim S100000x256 ![] bcast_S_S100000x256 : (⟨S_, .f32⟩ : BufTy).Contents (Elt F) → (⟨S100000x256, .f32⟩ : BufTy).Contents (Elt F)) ]

set_option maxHeartbeats 4000000 in
/-- Step 0 of the accumulation: column 0 of the rule book normalised, the rows gathered, the product with slice 0 of the weights, added. -/
abbrev s0 : List (HloOp τ sig (Elt F)) :=
  [ StableHlo.unary main_arg4 main_v3 ((extractStridedSlice S100000x1 ![0, 0] · slices_S100000x8_S100000x1_0_0) : (⟨S100000x8, .i32⟩ : BufTy).Contents (Elt F) → (⟨S100000x1, .i32⟩ : BufTy).Contents (Elt F)),
    StableHlo.reshape main_v3 main_v4 rfl shapeCasts_S100000x1_S100000,
    StableHlo.nullary main_c (constantI S_ 32 0#32),
    StableHlo.unary main_c main_v5 (broadcastInDim S100000 ![] bcast_S_S100000 : (⟨S_, .i32⟩ : BufTy).Contents (Elt F) → (⟨S100000, .i32⟩ : BufTy).Contents (Elt F)),
    StableHlo.binary main_v4 main_v5 main_v6 (cmpi .slt : (⟨S100000, .i32⟩ : BufTy).Contents (Elt F) → (⟨S100000, .i32⟩ : BufTy).Contents (Elt F) → (⟨S100000, .i1⟩ : BufTy).Contents (Elt F)),
    StableHlo.nullary main_c_1 (constantI S_ 32 400001#32),
    StableHlo.unary main_c_1 main_v7 (broadcastInDim S100000 ![] bcast_S_S100000 : (⟨S_, .i32⟩ : BufTy).Contents (Elt F) → (⟨S100000, .i32⟩ : BufTy).Contents (Elt F)),
    StableHlo.binary main_v4 main_v7 main_v8 (addi : (⟨S100000, .i32⟩ : BufTy).Contents (Elt F) → (⟨S100000, .i32⟩ : BufTy).Contents (Elt F) → (⟨S100000, .i32⟩ : BufTy).Contents (Elt F)),
    StableHlo.ternary main_v6 main_v8 main_v4 main_v9 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v9 main_v10 (broadcastInDim S100000x1 ![0] bcast_S100000_S100000x1_0 : (⟨S100000, .i32⟩ : BufTy).Contents (Elt F) → (⟨S100000x1, .i32⟩ : BufTy).Contents (Elt F)),
    StableHlo.binary main_v1 main_v10 main_v11 ((fun x i => Host.gather gather_S400001x128_S100000x1_S100000x128_1_0_n_n_0_1_1128 x i) : (⟨S400001x128, .f32⟩ : BufTy).Contents (Elt F) → (⟨S100000x1, .i32⟩ : BufTy).Contents (Elt F) → (⟨S100000x128, .f32⟩ : BufTy).Contents (Elt F)),
    StableHlo.unary main_arg1 main_v12 ((extractStridedSlice S1x128x256 ![0, 0, 0] · slices_S8x128x256_S1x128x256_0_0_0) : (⟨S8x128x256, .f32⟩ : BufTy).Contents (Elt F) → (⟨S1x128x256, .f32⟩ : BufTy).Contents (Elt F)),
    StableHlo.reshape main_v12 main_v13 rfl shapeCasts_S1x128x256_S128x256,
    StableHlo.binary main_v11 main_v13 main_v14 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.binary main_v2 main_v14 main_v15 (addf : (⟨S100000x256, .f32⟩ : BufTy).Contents (Elt F) → (⟨S100000x256, .f32⟩ : BufTy).Contents (Elt F) → (⟨S100000x256, .f32⟩ : BufTy).Contents (Elt F)) ]

set_option maxHeartbeats 4000000 in
/-- Step 1 of the accumulation: column 1 of the rule book normalised, the rows gathered, the product with slice 1 of the weights, added. -/
abbrev s1 : List (HloOp τ sig (Elt F)) :=
  [ StableHlo.unary main_arg4 main_v16 ((extractStridedSlice S100000x1 ![0, 1] · slices_S100000x8_S100000x1_0_1) : (⟨S100000x8, .i32⟩ : BufTy).Contents (Elt F) → (⟨S100000x1, .i32⟩ : BufTy).Contents (Elt F)),
    StableHlo.reshape main_v16 main_v17 rfl shapeCasts_S100000x1_S100000,
    StableHlo.nullary main_c_2 (constantI S_ 32 0#32),
    StableHlo.unary main_c_2 main_v18 (broadcastInDim S100000 ![] bcast_S_S100000 : (⟨S_, .i32⟩ : BufTy).Contents (Elt F) → (⟨S100000, .i32⟩ : BufTy).Contents (Elt F)),
    StableHlo.binary main_v17 main_v18 main_v19 (cmpi .slt : (⟨S100000, .i32⟩ : BufTy).Contents (Elt F) → (⟨S100000, .i32⟩ : BufTy).Contents (Elt F) → (⟨S100000, .i1⟩ : BufTy).Contents (Elt F)),
    StableHlo.nullary main_c_3 (constantI S_ 32 400001#32),
    StableHlo.unary main_c_3 main_v20 (broadcastInDim S100000 ![] bcast_S_S100000 : (⟨S_, .i32⟩ : BufTy).Contents (Elt F) → (⟨S100000, .i32⟩ : BufTy).Contents (Elt F)),
    StableHlo.binary main_v17 main_v20 main_v21 (addi : (⟨S100000, .i32⟩ : BufTy).Contents (Elt F) → (⟨S100000, .i32⟩ : BufTy).Contents (Elt F) → (⟨S100000, .i32⟩ : BufTy).Contents (Elt F)),
    StableHlo.ternary main_v19 main_v21 main_v17 main_v22 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v22 main_v23 (broadcastInDim S100000x1 ![0] bcast_S100000_S100000x1_0 : (⟨S100000, .i32⟩ : BufTy).Contents (Elt F) → (⟨S100000x1, .i32⟩ : BufTy).Contents (Elt F)),
    StableHlo.binary main_v1 main_v23 main_v24 ((fun x i => Host.gather gather_S400001x128_S100000x1_S100000x128_1_0_n_n_0_1_1128 x i) : (⟨S400001x128, .f32⟩ : BufTy).Contents (Elt F) → (⟨S100000x1, .i32⟩ : BufTy).Contents (Elt F) → (⟨S100000x128, .f32⟩ : BufTy).Contents (Elt F)),
    StableHlo.unary main_arg1 main_v25 ((extractStridedSlice S1x128x256 ![1, 0, 0] · slices_S8x128x256_S1x128x256_1_0_0) : (⟨S8x128x256, .f32⟩ : BufTy).Contents (Elt F) → (⟨S1x128x256, .f32⟩ : BufTy).Contents (Elt F)),
    StableHlo.reshape main_v25 main_v26 rfl shapeCasts_S1x128x256_S128x256,
    StableHlo.binary main_v24 main_v26 main_v27 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.binary main_v15 main_v27 main_v28 (addf : (⟨S100000x256, .f32⟩ : BufTy).Contents (Elt F) → (⟨S100000x256, .f32⟩ : BufTy).Contents (Elt F) → (⟨S100000x256, .f32⟩ : BufTy).Contents (Elt F)) ]

set_option maxHeartbeats 4000000 in
/-- Step 2 of the accumulation: column 2 of the rule book normalised, the rows gathered, the product with slice 2 of the weights, added. -/
abbrev s2 : List (HloOp τ sig (Elt F)) :=
  [ StableHlo.unary main_arg4 main_v29 ((extractStridedSlice S100000x1 ![0, 2] · slices_S100000x8_S100000x1_0_2) : (⟨S100000x8, .i32⟩ : BufTy).Contents (Elt F) → (⟨S100000x1, .i32⟩ : BufTy).Contents (Elt F)),
    StableHlo.reshape main_v29 main_v30 rfl shapeCasts_S100000x1_S100000,
    StableHlo.nullary main_c_4 (constantI S_ 32 0#32),
    StableHlo.unary main_c_4 main_v31 (broadcastInDim S100000 ![] bcast_S_S100000 : (⟨S_, .i32⟩ : BufTy).Contents (Elt F) → (⟨S100000, .i32⟩ : BufTy).Contents (Elt F)),
    StableHlo.binary main_v30 main_v31 main_v32 (cmpi .slt : (⟨S100000, .i32⟩ : BufTy).Contents (Elt F) → (⟨S100000, .i32⟩ : BufTy).Contents (Elt F) → (⟨S100000, .i1⟩ : BufTy).Contents (Elt F)),
    StableHlo.nullary main_c_5 (constantI S_ 32 400001#32),
    StableHlo.unary main_c_5 main_v33 (broadcastInDim S100000 ![] bcast_S_S100000 : (⟨S_, .i32⟩ : BufTy).Contents (Elt F) → (⟨S100000, .i32⟩ : BufTy).Contents (Elt F)),
    StableHlo.binary main_v30 main_v33 main_v34 (addi : (⟨S100000, .i32⟩ : BufTy).Contents (Elt F) → (⟨S100000, .i32⟩ : BufTy).Contents (Elt F) → (⟨S100000, .i32⟩ : BufTy).Contents (Elt F)),
    StableHlo.ternary main_v32 main_v34 main_v30 main_v35 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v35 main_v36 (broadcastInDim S100000x1 ![0] bcast_S100000_S100000x1_0 : (⟨S100000, .i32⟩ : BufTy).Contents (Elt F) → (⟨S100000x1, .i32⟩ : BufTy).Contents (Elt F)),
    StableHlo.binary main_v1 main_v36 main_v37 ((fun x i => Host.gather gather_S400001x128_S100000x1_S100000x128_1_0_n_n_0_1_1128 x i) : (⟨S400001x128, .f32⟩ : BufTy).Contents (Elt F) → (⟨S100000x1, .i32⟩ : BufTy).Contents (Elt F) → (⟨S100000x128, .f32⟩ : BufTy).Contents (Elt F)),
    StableHlo.unary main_arg1 main_v38 ((extractStridedSlice S1x128x256 ![2, 0, 0] · slices_S8x128x256_S1x128x256_2_0_0) : (⟨S8x128x256, .f32⟩ : BufTy).Contents (Elt F) → (⟨S1x128x256, .f32⟩ : BufTy).Contents (Elt F)),
    StableHlo.reshape main_v38 main_v39 rfl shapeCasts_S1x128x256_S128x256,
    StableHlo.binary main_v37 main_v39 main_v40 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.binary main_v28 main_v40 main_v41 (addf : (⟨S100000x256, .f32⟩ : BufTy).Contents (Elt F) → (⟨S100000x256, .f32⟩ : BufTy).Contents (Elt F) → (⟨S100000x256, .f32⟩ : BufTy).Contents (Elt F)) ]

set_option maxHeartbeats 4000000 in
/-- The first ten operations of step 3. -/
abbrev s3a : List (HloOp τ sig (Elt F)) :=
  [ StableHlo.unary main_arg4 main_v42 ((extractStridedSlice S100000x1 ![0, 3] · slices_S100000x8_S100000x1_0_3) : (⟨S100000x8, .i32⟩ : BufTy).Contents (Elt F) → (⟨S100000x1, .i32⟩ : BufTy).Contents (Elt F)),
    StableHlo.reshape main_v42 main_v43 rfl shapeCasts_S100000x1_S100000,
    StableHlo.nullary main_c_6 (constantI S_ 32 0#32),
    StableHlo.unary main_c_6 main_v44 (broadcastInDim S100000 ![] bcast_S_S100000 : (⟨S_, .i32⟩ : BufTy).Contents (Elt F) → (⟨S100000, .i32⟩ : BufTy).Contents (Elt F)),
    StableHlo.binary main_v43 main_v44 main_v45 (cmpi .slt : (⟨S100000, .i32⟩ : BufTy).Contents (Elt F) → (⟨S100000, .i32⟩ : BufTy).Contents (Elt F) → (⟨S100000, .i1⟩ : BufTy).Contents (Elt F)),
    StableHlo.nullary main_c_7 (constantI S_ 32 400001#32),
    StableHlo.unary main_c_7 main_v46 (broadcastInDim S100000 ![] bcast_S_S100000 : (⟨S_, .i32⟩ : BufTy).Contents (Elt F) → (⟨S100000, .i32⟩ : BufTy).Contents (Elt F)),
    StableHlo.binary main_v43 main_v46 main_v47 (addi : (⟨S100000, .i32⟩ : BufTy).Contents (Elt F) → (⟨S100000, .i32⟩ : BufTy).Contents (Elt F) → (⟨S100000, .i32⟩ : BufTy).Contents (Elt F)),
    StableHlo.ternary main_v45 main_v47 main_v43 main_v48 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v48 main_v49 (broadcastInDim S100000x1 ![0] bcast_S100000_S100000x1_0 : (⟨S100000, .i32⟩ : BufTy).Contents (Elt F) → (⟨S100000x1, .i32⟩ : BufTy).Contents (Elt F)) ]

set_option maxHeartbeats 4000000 in
/-- The last five operations of step 3. -/
abbrev s3b : List (HloOp τ sig (Elt F)) :=
  [ StableHlo.binary main_v1 main_v49 main_v50 ((fun x i => Host.gather gather_S400001x128_S100000x1_S100000x128_1_0_n_n_0_1_1128 x i) : (⟨S400001x128, .f32⟩ : BufTy).Contents (Elt F) → (⟨S100000x1, .i32⟩ : BufTy).Contents (Elt F) → (⟨S100000x128, .f32⟩ : BufTy).Contents (Elt F)),
    StableHlo.unary main_arg1 main_v51 ((extractStridedSlice S1x128x256 ![3, 0, 0] · slices_S8x128x256_S1x128x256_3_0_0) : (⟨S8x128x256, .f32⟩ : BufTy).Contents (Elt F) → (⟨S1x128x256, .f32⟩ : BufTy).Contents (Elt F)),
    StableHlo.reshape main_v51 main_v52 rfl shapeCasts_S1x128x256_S128x256,
    StableHlo.binary main_v50 main_v52 main_v53 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.binary main_v41 main_v53 main_v54 (addf : (⟨S100000x256, .f32⟩ : BufTy).Contents (Elt F) → (⟨S100000x256, .f32⟩ : BufTy).Contents (Elt F) → (⟨S100000x256, .f32⟩ : BufTy).Contents (Elt F)) ]

set_option maxHeartbeats 4000000 in
/-- Step 4 of the accumulation: column 4 of the rule book normalised, the rows gathered, the product with slice 4 of the weights, added. -/
abbrev s4 : List (HloOp τ sig (Elt F)) :=
  [ StableHlo.unary main_arg4 main_v55 ((extractStridedSlice S100000x1 ![0, 4] · slices_S100000x8_S100000x1_0_4) : (⟨S100000x8, .i32⟩ : BufTy).Contents (Elt F) → (⟨S100000x1, .i32⟩ : BufTy).Contents (Elt F)),
    StableHlo.reshape main_v55 main_v56 rfl shapeCasts_S100000x1_S100000,
    StableHlo.nullary main_c_8 (constantI S_ 32 0#32),
    StableHlo.unary main_c_8 main_v57 (broadcastInDim S100000 ![] bcast_S_S100000 : (⟨S_, .i32⟩ : BufTy).Contents (Elt F) → (⟨S100000, .i32⟩ : BufTy).Contents (Elt F)),
    StableHlo.binary main_v56 main_v57 main_v58 (cmpi .slt : (⟨S100000, .i32⟩ : BufTy).Contents (Elt F) → (⟨S100000, .i32⟩ : BufTy).Contents (Elt F) → (⟨S100000, .i1⟩ : BufTy).Contents (Elt F)),
    StableHlo.nullary main_c_9 (constantI S_ 32 400001#32),
    StableHlo.unary main_c_9 main_v59 (broadcastInDim S100000 ![] bcast_S_S100000 : (⟨S_, .i32⟩ : BufTy).Contents (Elt F) → (⟨S100000, .i32⟩ : BufTy).Contents (Elt F)),
    StableHlo.binary main_v56 main_v59 main_v60 (addi : (⟨S100000, .i32⟩ : BufTy).Contents (Elt F) → (⟨S100000, .i32⟩ : BufTy).Contents (Elt F) → (⟨S100000, .i32⟩ : BufTy).Contents (Elt F)),
    StableHlo.ternary main_v58 main_v60 main_v56 main_v61 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v61 main_v62 (broadcastInDim S100000x1 ![0] bcast_S100000_S100000x1_0 : (⟨S100000, .i32⟩ : BufTy).Contents (Elt F) → (⟨S100000x1, .i32⟩ : BufTy).Contents (Elt F)),
    StableHlo.binary main_v1 main_v62 main_v63 ((fun x i => Host.gather gather_S400001x128_S100000x1_S100000x128_1_0_n_n_0_1_1128 x i) : (⟨S400001x128, .f32⟩ : BufTy).Contents (Elt F) → (⟨S100000x1, .i32⟩ : BufTy).Contents (Elt F) → (⟨S100000x128, .f32⟩ : BufTy).Contents (Elt F)),
    StableHlo.unary main_arg1 main_v64 ((extractStridedSlice S1x128x256 ![4, 0, 0] · slices_S8x128x256_S1x128x256_4_0_0) : (⟨S8x128x256, .f32⟩ : BufTy).Contents (Elt F) → (⟨S1x128x256, .f32⟩ : BufTy).Contents (Elt F)),
    StableHlo.reshape main_v64 main_v65 rfl shapeCasts_S1x128x256_S128x256,
    StableHlo.binary main_v63 main_v65 main_v66 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.binary main_v54 main_v66 main_v67 (addf : (⟨S100000x256, .f32⟩ : BufTy).Contents (Elt F) → (⟨S100000x256, .f32⟩ : BufTy).Contents (Elt F) → (⟨S100000x256, .f32⟩ : BufTy).Contents (Elt F)) ]

set_option maxHeartbeats 4000000 in
/-- Step 5 of the accumulation: column 5 of the rule book normalised, the rows gathered, the product with slice 5 of the weights, added. -/
abbrev s5 : List (HloOp τ sig (Elt F)) :=
  [ StableHlo.unary main_arg4 main_v68 ((extractStridedSlice S100000x1 ![0, 5] · slices_S100000x8_S100000x1_0_5) : (⟨S100000x8, .i32⟩ : BufTy).Contents (Elt F) → (⟨S100000x1, .i32⟩ : BufTy).Contents (Elt F)),
    StableHlo.reshape main_v68 main_v69 rfl shapeCasts_S100000x1_S100000,
    StableHlo.nullary main_c_10 (constantI S_ 32 0#32),
    StableHlo.unary main_c_10 main_v70 (broadcastInDim S100000 ![] bcast_S_S100000 : (⟨S_, .i32⟩ : BufTy).Contents (Elt F) → (⟨S100000, .i32⟩ : BufTy).Contents (Elt F)),
    StableHlo.binary main_v69 main_v70 main_v71 (cmpi .slt : (⟨S100000, .i32⟩ : BufTy).Contents (Elt F) → (⟨S100000, .i32⟩ : BufTy).Contents (Elt F) → (⟨S100000, .i1⟩ : BufTy).Contents (Elt F)),
    StableHlo.nullary main_c_11 (constantI S_ 32 400001#32),
    StableHlo.unary main_c_11 main_v72 (broadcastInDim S100000 ![] bcast_S_S100000 : (⟨S_, .i32⟩ : BufTy).Contents (Elt F) → (⟨S100000, .i32⟩ : BufTy).Contents (Elt F)),
    StableHlo.binary main_v69 main_v72 main_v73 (addi : (⟨S100000, .i32⟩ : BufTy).Contents (Elt F) → (⟨S100000, .i32⟩ : BufTy).Contents (Elt F) → (⟨S100000, .i32⟩ : BufTy).Contents (Elt F)),
    StableHlo.ternary main_v71 main_v73 main_v69 main_v74 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v74 main_v75 (broadcastInDim S100000x1 ![0] bcast_S100000_S100000x1_0 : (⟨S100000, .i32⟩ : BufTy).Contents (Elt F) → (⟨S100000x1, .i32⟩ : BufTy).Contents (Elt F)),
    StableHlo.binary main_v1 main_v75 main_v76 ((fun x i => Host.gather gather_S400001x128_S100000x1_S100000x128_1_0_n_n_0_1_1128 x i) : (⟨S400001x128, .f32⟩ : BufTy).Contents (Elt F) → (⟨S100000x1, .i32⟩ : BufTy).Contents (Elt F) → (⟨S100000x128, .f32⟩ : BufTy).Contents (Elt F)),
    StableHlo.unary main_arg1 main_v77 ((extractStridedSlice S1x128x256 ![5, 0, 0] · slices_S8x128x256_S1x128x256_5_0_0) : (⟨S8x128x256, .f32⟩ : BufTy).Contents (Elt F) → (⟨S1x128x256, .f32⟩ : BufTy).Contents (Elt F)),
    StableHlo.reshape main_v77 main_v78 rfl shapeCasts_S1x128x256_S128x256,
    StableHlo.binary main_v76 main_v78 main_v79 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.binary main_v67 main_v79 main_v80 (addf : (⟨S100000x256, .f32⟩ : BufTy).Contents (Elt F) → (⟨S100000x256, .f32⟩ : BufTy).Contents (Elt F) → (⟨S100000x256, .f32⟩ : BufTy).Contents (Elt F)) ]

set_option maxHeartbeats 4000000 in
/-- Step 6 of the accumulation: column 6 of the rule book normalised, the rows gathered, the product with slice 6 of the weights, added. -/
abbrev s6 : List (HloOp τ sig (Elt F)) :=
  [ StableHlo.unary main_arg4 main_v81 ((extractStridedSlice S100000x1 ![0, 6] · slices_S100000x8_S100000x1_0_6) : (⟨S100000x8, .i32⟩ : BufTy).Contents (Elt F) → (⟨S100000x1, .i32⟩ : BufTy).Contents (Elt F)),
    StableHlo.reshape main_v81 main_v82 rfl shapeCasts_S100000x1_S100000,
    StableHlo.nullary main_c_12 (constantI S_ 32 0#32),
    StableHlo.unary main_c_12 main_v83 (broadcastInDim S100000 ![] bcast_S_S100000 : (⟨S_, .i32⟩ : BufTy).Contents (Elt F) → (⟨S100000, .i32⟩ : BufTy).Contents (Elt F)),
    StableHlo.binary main_v82 main_v83 main_v84 (cmpi .slt : (⟨S100000, .i32⟩ : BufTy).Contents (Elt F) → (⟨S100000, .i32⟩ : BufTy).Contents (Elt F) → (⟨S100000, .i1⟩ : BufTy).Contents (Elt F)),
    StableHlo.nullary main_c_13 (constantI S_ 32 400001#32),
    StableHlo.unary main_c_13 main_v85 (broadcastInDim S100000 ![] bcast_S_S100000 : (⟨S_, .i32⟩ : BufTy).Contents (Elt F) → (⟨S100000, .i32⟩ : BufTy).Contents (Elt F)),
    StableHlo.binary main_v82 main_v85 main_v86 (addi : (⟨S100000, .i32⟩ : BufTy).Contents (Elt F) → (⟨S100000, .i32⟩ : BufTy).Contents (Elt F) → (⟨S100000, .i32⟩ : BufTy).Contents (Elt F)),
    StableHlo.ternary main_v84 main_v86 main_v82 main_v87 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v87 main_v88 (broadcastInDim S100000x1 ![0] bcast_S100000_S100000x1_0 : (⟨S100000, .i32⟩ : BufTy).Contents (Elt F) → (⟨S100000x1, .i32⟩ : BufTy).Contents (Elt F)),
    StableHlo.binary main_v1 main_v88 main_v89 ((fun x i => Host.gather gather_S400001x128_S100000x1_S100000x128_1_0_n_n_0_1_1128 x i) : (⟨S400001x128, .f32⟩ : BufTy).Contents (Elt F) → (⟨S100000x1, .i32⟩ : BufTy).Contents (Elt F) → (⟨S100000x128, .f32⟩ : BufTy).Contents (Elt F)),
    StableHlo.unary main_arg1 main_v90 ((extractStridedSlice S1x128x256 ![6, 0, 0] · slices_S8x128x256_S1x128x256_6_0_0) : (⟨S8x128x256, .f32⟩ : BufTy).Contents (Elt F) → (⟨S1x128x256, .f32⟩ : BufTy).Contents (Elt F)),
    StableHlo.reshape main_v90 main_v91 rfl shapeCasts_S1x128x256_S128x256,
    StableHlo.binary main_v89 main_v91 main_v92 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.binary main_v80 main_v92 main_v93 (addf : (⟨S100000x256, .f32⟩ : BufTy).Contents (Elt F) → (⟨S100000x256, .f32⟩ : BufTy).Contents (Elt F) → (⟨S100000x256, .f32⟩ : BufTy).Contents (Elt F)) ]

set_option maxHeartbeats 4000000 in
/-- The first ten operations of step 7. -/
abbrev s7a : List (HloOp τ sig (Elt F)) :=
  [ StableHlo.unary main_arg4 main_v94 ((extractStridedSlice S100000x1 ![0, 7] · slices_S100000x8_S100000x1_0_7) : (⟨S100000x8, .i32⟩ : BufTy).Contents (Elt F) → (⟨S100000x1, .i32⟩ : BufTy).Contents (Elt F)),
    StableHlo.reshape main_v94 main_v95 rfl shapeCasts_S100000x1_S100000,
    StableHlo.nullary main_c_14 (constantI S_ 32 0#32),
    StableHlo.unary main_c_14 main_v96 (broadcastInDim S100000 ![] bcast_S_S100000 : (⟨S_, .i32⟩ : BufTy).Contents (Elt F) → (⟨S100000, .i32⟩ : BufTy).Contents (Elt F)),
    StableHlo.binary main_v95 main_v96 main_v97 (cmpi .slt : (⟨S100000, .i32⟩ : BufTy).Contents (Elt F) → (⟨S100000, .i32⟩ : BufTy).Contents (Elt F) → (⟨S100000, .i1⟩ : BufTy).Contents (Elt F)),
    StableHlo.nullary main_c_15 (constantI S_ 32 400001#32),
    StableHlo.unary main_c_15 main_v98 (broadcastInDim S100000 ![] bcast_S_S100000 : (⟨S_, .i32⟩ : BufTy).Contents (Elt F) → (⟨S100000, .i32⟩ : BufTy).Contents (Elt F)),
    StableHlo.binary main_v95 main_v98 main_v99 (addi : (⟨S100000, .i32⟩ : BufTy).Contents (Elt F) → (⟨S100000, .i32⟩ : BufTy).Contents (Elt F) → (⟨S100000, .i32⟩ : BufTy).Contents (Elt F)),
    StableHlo.ternary main_v97 main_v99 main_v95 main_v100 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v100 main_v101 (broadcastInDim S100000x1 ![0] bcast_S100000_S100000x1_0 : (⟨S100000, .i32⟩ : BufTy).Contents (Elt F) → (⟨S100000x1, .i32⟩ : BufTy).Contents (Elt F)) ]

set_option maxHeartbeats 4000000 in
/-- The last five operations of step 7. -/
abbrev s7b : List (HloOp τ sig (Elt F)) :=
  [ StableHlo.binary main_v1 main_v101 main_v102 ((fun x i => Host.gather gather_S400001x128_S100000x1_S100000x128_1_0_n_n_0_1_1128 x i) : (⟨S400001x128, .f32⟩ : BufTy).Contents (Elt F) → (⟨S100000x1, .i32⟩ : BufTy).Contents (Elt F) → (⟨S100000x128, .f32⟩ : BufTy).Contents (Elt F)),
    StableHlo.unary main_arg1 main_v103 ((extractStridedSlice S1x128x256 ![7, 0, 0] · slices_S8x128x256_S1x128x256_7_0_0) : (⟨S8x128x256, .f32⟩ : BufTy).Contents (Elt F) → (⟨S1x128x256, .f32⟩ : BufTy).Contents (Elt F)),
    StableHlo.reshape main_v103 main_v104 rfl shapeCasts_S1x128x256_S128x256,
    StableHlo.binary main_v102 main_v104 main_v105 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.binary main_v93 main_v105 main_v106 (addf : (⟨S100000x256, .f32⟩ : BufTy).Contents (Elt F) → (⟨S100000x256, .f32⟩ : BufTy).Contents (Elt F) → (⟨S100000x256, .f32⟩ : BufTy).Contents (Elt F)) ]

set_option maxHeartbeats 4000000 in
/-- The mean, the variance, the normalisation and the rectification: forty-seven operations, the three outlined functions' lines in place at their calls. -/
abbrev tl : List (HloOp τ sig (Elt F)) :=
  [ StableHlo.nullary main_cst_16 (constant S_ .f32 0x00000000#32),
    StableHlo.binary main_v106 main_cst_16 main_v107 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    StableHlo.nullary main_cst_17 (constant S_ .f32 0x47C35000#32),
    StableHlo.unary main_cst_17 main_v108 (broadcastInDim S256 ![] bcast_S_S256 : (⟨S_, .f32⟩ : BufTy).Contents (Elt F) → (⟨S256, .f32⟩ : BufTy).Contents (Elt F)),
    StableHlo.binary main_v107 main_v108 main_v109 (Host.divf : (⟨S256, .f32⟩ : BufTy).Contents (Elt F) → (⟨S256, .f32⟩ : BufTy).Contents (Elt F) → (⟨S256, .f32⟩ : BufTy).Contents (Elt F)),
    StableHlo.nullary main_c_18 (constantI S_ 32 0#32),
    StableHlo.TRef.nullary main_call0.cst (constant S_ .f32 0x00000000#32),
    StableHlo.TRef.binary (.of main_v106) main_call0.cst main_call0.v0 (fun x v => Host.reduceAdd x v reducesTo_S100000x256_S256_d0 h_S_),
    StableHlo.TRef.unary main_call0.v0 main_call0.v1 (broadcastInDim S1x256 ![1] bcast_S256_S1x256_1),
    StableHlo.TRef.nullary main_call0.cst_0 (constant S_ .f32 0x47C35000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S100000x256 ![0, 1] bcast_S1x256_S100000x256_0_1),
    StableHlo.TRef.binary (.of main_v106) main_call0.v4 main_call0.v5 subf,
    StableHlo.TRef.binary main_call0.v5 main_call0.v5 main_call0.v6 mulf,
    StableHlo.TRef.unary (.of main_c_18) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v109 main_v111 (broadcastInDim S1x256 ![1] bcast_S256_S1x256_1 : (⟨S256, .f32⟩ : BufTy).Contents (Elt F) → (⟨S1x256, .f32⟩ : BufTy).Contents (Elt F)),
    StableHlo.unary main_v111 main_v112 (broadcastInDim S100000x256 ![0, 1] bcast_S1x256_S100000x256_0_1 : (⟨S1x256, .f32⟩ : BufTy).Contents (Elt F) → (⟨S100000x256, .f32⟩ : BufTy).Contents (Elt F)),
    StableHlo.binary main_v106 main_v112 main_v113 (subf : (⟨S100000x256, .f32⟩ : BufTy).Contents (Elt F) → (⟨S100000x256, .f32⟩ : BufTy).Contents (Elt F) → (⟨S100000x256, .f32⟩ : BufTy).Contents (Elt F)),
    StableHlo.nullary main_cst_19 (constant S_ .f32 0x38D1B717#32),
    StableHlo.unary main_cst_19 main_v114 (broadcastInDim S256 ![] bcast_S_S256 : (⟨S_, .f32⟩ : BufTy).Contents (Elt F) → (⟨S256, .f32⟩ : BufTy).Contents (Elt F)),
    StableHlo.binary main_v110 main_v114 main_v115 (addf : (⟨S256, .f32⟩ : BufTy).Contents (Elt F) → (⟨S256, .f32⟩ : BufTy).Contents (Elt F) → (⟨S256, .f32⟩ : BufTy).Contents (Elt F)),
    StableHlo.unary main_v115 main_v116 (Host.rsqrt : (⟨S256, .f32⟩ : BufTy).Contents (Elt F) → (⟨S256, .f32⟩ : BufTy).Contents (Elt F)),
    StableHlo.unary main_v116 main_v117 (broadcastInDim S1x256 ![1] bcast_S256_S1x256_1 : (⟨S256, .f32⟩ : BufTy).Contents (Elt F) → (⟨S1x256, .f32⟩ : BufTy).Contents (Elt F)),
    StableHlo.unary main_v117 main_v118 (broadcastInDim S100000x256 ![0, 1] bcast_S1x256_S100000x256_0_1 : (⟨S1x256, .f32⟩ : BufTy).Contents (Elt F) → (⟨S100000x256, .f32⟩ : BufTy).Contents (Elt F)),
    StableHlo.binary main_v113 main_v118 main_v119 (mulf : (⟨S100000x256, .f32⟩ : BufTy).Contents (Elt F) → (⟨S100000x256, .f32⟩ : BufTy).Contents (Elt F) → (⟨S100000x256, .f32⟩ : BufTy).Contents (Elt F)),
    StableHlo.unary main_arg2 main_v120 (broadcastInDim S1x256 ![1] bcast_S256_S1x256_1 : (⟨S256, .f32⟩ : BufTy).Contents (Elt F) → (⟨S1x256, .f32⟩ : BufTy).Contents (Elt F)),
    StableHlo.unary main_v120 main_v121 (broadcastInDim S100000x256 ![0, 1] bcast_S1x256_S100000x256_0_1 : (⟨S1x256, .f32⟩ : BufTy).Contents (Elt F) → (⟨S100000x256, .f32⟩ : BufTy).Contents (Elt F)),
    StableHlo.binary main_v119 main_v121 main_v122 (mulf : (⟨S100000x256, .f32⟩ : BufTy).Contents (Elt F) → (⟨S100000x256, .f32⟩ : BufTy).Contents (Elt F) → (⟨S100000x256, .f32⟩ : BufTy).Contents (Elt F)),
    StableHlo.unary main_arg3 main_v123 (broadcastInDim S1x256 ![1] bcast_S256_S1x256_1 : (⟨S256, .f32⟩ : BufTy).Contents (Elt F) → (⟨S1x256, .f32⟩ : BufTy).Contents (Elt F)),
    StableHlo.unary main_v123 main_v124 (broadcastInDim S100000x256 ![0, 1] bcast_S1x256_S100000x256_0_1 : (⟨S1x256, .f32⟩ : BufTy).Contents (Elt F) → (⟨S100000x256, .f32⟩ : BufTy).Contents (Elt F)),
    StableHlo.binary main_v122 main_v124 main_v125 (addf : (⟨S100000x256, .f32⟩ : BufTy).Contents (Elt F) → (⟨S100000x256, .f32⟩ : BufTy).Contents (Elt F) → (⟨S100000x256, .f32⟩ : BufTy).Contents (Elt F)),
    StableHlo.TRef.nullary main_call1.cst (constant S_ .f32 0x00000000#32),
    StableHlo.TRef.unary main_call1.cst main_call1.v0 (broadcastInDim S100000x256 ![] bcast_S_S100000x256),
    StableHlo.TRef.binary (.of main_v125) main_call1.v0 main_call1.v1 maximumf ]

/-- Step 3 whole. -/
abbrev s3 : List (HloOp τ sig (Elt F)) := s3a ++ s3b
/-- Step 7 whole. -/
abbrev s7 : List (HloOp τ sig (Elt F)) := s7a ++ s7b

/-- The first printed window's sixty operations. -/
abbrev ops0 : List (HloOp τ sig (Elt F)) := pre ++ (s0 ++ (s1 ++ (s2 ++ s3a)))
/-- The second printed window's sixty operations. -/
abbrev ops1 : List (HloOp τ sig (Elt F)) := s3b ++ (s4 ++ (s5 ++ (s6 ++ s7a)))
/-- The third printed window's operations, the calls' lines in place: fifty-two. -/
abbrev ops2 : List (HloOp τ sig (Elt F)) := s7b ++ tl
/-- @main's operations, in order. -/
abbrev ops : List (HloOp τ sig (Elt F)) := ops0 ++ (ops1 ++ ops2)

/-! ## The program is that line -/

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

set_option maxRecDepth 8192 in
set_option maxHeartbeats 4000000 in
/-- The third window: the three functions' bodies unfold at their calls, the records at their fields. -/
theorem main_part2_eq (c : Dev nD) : main_part2 (F := F) c = seq ops2 := rfl

/-- @main is the straight line of its operations: its three windows in order are the three lists in order. -/
theorem main_eq (c : Dev nD) : main (F := F) c = seq ops := by
  show (main_part0 (F := F) c >>= fun _ => main_part1 (F := F) c >>= fun _ => main_part2 (F := F) c) = seq (ops0 ++ (ops1 ++ ops2))
  rw [seq_append ops0 (ops1 ++ ops2), seq_append ops1 ops2, main_part0_eq, main_part1_eq, main_part2_eq]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and determines its results -/

theorem pre_sub : (pre : List (HloOp τ sig (Elt F))).Forall fun op => op.bufs ⊆ tcRefs τ sig :=
  ⟨nullary_bufs_sub .., unary_bufs_sub .., binary_bufs_sub .., nullary_bufs_sub .., unary_bufs_sub ..⟩
theorem pre_fresh : ∀ op ∈ (pre : List (HloOp τ sig (Elt F))), op.fresh = ∅ := by
  intro _ h; (repeat (cases h with | head => rfl | tail _ h => ?_)); exact nomatch h

theorem s0_sub : (s0 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub ..⟩
theorem s0_fresh : ∀ op ∈ (s0 : List (HloOp τ sig (Elt F))), op.fresh = ∅ := by
  intro _ h; (repeat (cases h with | head => rfl | tail _ h => ?_)); exact nomatch h

theorem s1_sub : (s1 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub ..⟩
theorem s1_fresh : ∀ op ∈ (s1 : List (HloOp τ sig (Elt F))), op.fresh = ∅ := by
  intro _ h; (repeat (cases h with | head => rfl | tail _ h => ?_)); exact nomatch h

theorem s2_sub : (s2 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub ..⟩
theorem s2_fresh : ∀ op ∈ (s2 : List (HloOp τ sig (Elt F))), op.fresh = ∅ := by
  intro _ h; (repeat (cases h with | head => rfl | tail _ h => ?_)); exact nomatch h

theorem s3a_sub : (s3a : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub ..⟩
theorem s3a_fresh : ∀ op ∈ (s3a : List (HloOp τ sig (Elt F))), op.fresh = ∅ := by
  intro _ h; (repeat (cases h with | head => rfl | tail _ h => ?_)); exact nomatch h

theorem s3b_sub : (s3b : List (HloOp τ sig (Elt F))).Forall fun op => op.bufs ⊆ tcRefs τ sig :=
  ⟨binary_bufs_sub .., unary_bufs_sub .., reshape_bufs_sub .., binary_bufs_sub .., binary_bufs_sub ..⟩
theorem s3b_fresh : ∀ op ∈ (s3b : List (HloOp τ sig (Elt F))), op.fresh = ∅ := by
  intro _ h; (repeat (cases h with | head => rfl | tail _ h => ?_)); exact nomatch h

theorem s4_sub : (s4 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub ..⟩
theorem s4_fresh : ∀ op ∈ (s4 : List (HloOp τ sig (Elt F))), op.fresh = ∅ := by
  intro _ h; (repeat (cases h with | head => rfl | tail _ h => ?_)); exact nomatch h

theorem s5_sub : (s5 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub ..⟩
theorem s5_fresh : ∀ op ∈ (s5 : List (HloOp τ sig (Elt F))), op.fresh = ∅ := by
  intro _ h; (repeat (cases h with | head => rfl | tail _ h => ?_)); exact nomatch h

theorem s6_sub : (s6 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub ..⟩
theorem s6_fresh : ∀ op ∈ (s6 : List (HloOp τ sig (Elt F))), op.fresh = ∅ := by
  intro _ h; (repeat (cases h with | head => rfl | tail _ h => ?_)); exact nomatch h

theorem s7a_sub : (s7a : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub ..⟩
theorem s7a_fresh : ∀ op ∈ (s7a : List (HloOp τ sig (Elt F))), op.fresh = ∅ := by
  intro _ h; (repeat (cases h with | head => rfl | tail _ h => ?_)); exact nomatch h

theorem s7b_sub : (s7b : List (HloOp τ sig (Elt F))).Forall fun op => op.bufs ⊆ tcRefs τ sig :=
  ⟨binary_bufs_sub .., unary_bufs_sub .., reshape_bufs_sub .., binary_bufs_sub .., binary_bufs_sub ..⟩
theorem s7b_fresh : ∀ op ∈ (s7b : List (HloOp τ sig (Elt F))), op.fresh = ∅ := by
  intro _ h; (repeat (cases h with | head => rfl | tail _ h => ?_)); exact nomatch h

theorem tl_sub : (tl : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem tl_fresh : ∀ op ∈ (tl : List (HloOp τ sig (Elt F))), op.fresh = ∅ := by
  intro _ h; (repeat (cases h with | head => rfl | tail _ h => ?_)); exact nomatch h

theorem forall_append {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append (forall_append pre_sub (forall_append s0_sub (forall_append s1_sub (forall_append s2_sub s3a_sub))))
    (forall_append (forall_append s3b_sub (forall_append s4_sub (forall_append s5_sub (forall_append s6_sub s7a_sub))))
      (forall_append s7b_sub tl_sub))

theorem mem_append_elim {α : Type} {p : α → Prop} {l₁ l₂ : List α} (h₁ : ∀ x ∈ l₁, p x) (h₂ : ∀ x ∈ l₂, p x) : ∀ x ∈ l₁ ++ l₂, p x :=
  fun x hx => (List.mem_append.mp hx).elim (h₁ x) (h₂ x)

theorem ops_fresh : ∀ op ∈ (ops : List (HloOp τ sig (Elt F))), op.fresh = ∅ :=
  mem_append_elim (mem_append_elim pre_fresh (mem_append_elim s0_fresh (mem_append_elim s1_fresh (mem_append_elim s2_fresh s3a_fresh))))
    (mem_append_elim (mem_append_elim s3b_fresh (mem_append_elim s4_fresh (mem_append_elim s5_fresh (mem_append_elim s6_fresh s7a_fresh))))
      (mem_append_elim s7b_fresh tl_fresh))

/-! ## The run -/

/-- On every device, for any float values, from any memory with zero counters: every weakly fair execution of @main
    terminates with each TensorCore buffer at the fold of the operations' results over its launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefValue

end
-- ==== Proof.RefSteps.lean ====
/-
  The first 125 operations read back piece by piece: after `pre` the table and the zero accumulator; after step `k`, whatever the
  contents `W` before it, the accumulator's buffer holds `step` of `W`'s table, weights, rule book and previous accumulator;
  and a reference a piece does not write keeps its contents.
-/
import proofs.«126886_j25967372272144_2_alg».proof.Proof.RefOps
import proofs.«126886_j25967372272144_2_alg».proof.Proof.RefDefs

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The table and the zero accumulator -/

attribute [local irreducible] concatenate in
theorem pre_read_v1 (W : Valuation τ sig (Elt Ideal)) :
    after pre W (main_v1 : DevRef τ sig) = table (W (main_arg0 : DevRef τ sig)) := by
  after_results_simp
  rfl

theorem pre_read_v2 (W : Valuation τ sig (Elt Ideal)) :
    after pre W (main_v2 : DevRef τ sig) = zeros := by
  after_results_simp
  rfl

/-- The references pre's operations write. -/
abbrev pre_W : List (Ref sig .tc) := [main_cst, main_v0, main_v1, main_cst_0, main_v2]
theorem pre_writes : (pre : List (HloOp τ sig (Elt Ideal))).Forall fun op => op.writes ⊆ (pre_W.map (Proc.devRef (τ := τ) .tc)).toFinset := by
  simp only [List.Forall, nullary_writes, unary_writes, binary_writes, ternary_writes, reshape_writes, Finset.singleton_subset_iff, List.mem_toFinset]
  refine ⟨?_, ?_, ?_, ?_, ?_⟩ <;> exact List.mem_map_of_mem (by decide)
/-- A reference pre does not write keeps its contents. -/
theorem pre_frame (W : Valuation τ sig (Elt Ideal)) (r : Ref sig .tc) (h : r ∉ pre_W) : after pre W (r : DevRef τ sig) = W (r : DevRef τ sig) :=
  after_of_writes_sub pre _ pre_writes h

/-! ## The eight steps -/

attribute [local irreducible] Host.gather concatenate in
/-- Step 0, whatever the contents before it. -/
theorem s0_read (W : Valuation τ sig (Elt Ideal)) :
    after s0 W (main_v15 : DevRef τ sig)
      = step (W (main_v1 : DevRef τ sig)) (W (main_arg1 : DevRef τ sig)) (W (main_arg4 : DevRef τ sig)) 0
          slices_S100000x8_S100000x1_0_0 slices_S8x128x256_S1x128x256_0_0_0 (W (main_v2 : DevRef τ sig)) := by
  after_results_simp
  rfl

/-- The references s0's operations write. -/
abbrev s0_W : List (Ref sig .tc) := [main_v3, main_v4, main_c, main_v5, main_v6, main_c_1, main_v7, main_v8, main_v9, main_v10, main_v11, main_v12, main_v13, main_v14, main_v15]
theorem s0_writes : (s0 : List (HloOp τ sig (Elt Ideal))).Forall fun op => op.writes ⊆ (s0_W.map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_, ?_⟩ <;> exact List.mem_map_of_mem (by decide)
/-- A reference s0 does not write keeps its contents. -/
theorem s0_frame (W : Valuation τ sig (Elt Ideal)) (r : Ref sig .tc) (h : r ∉ s0_W) : after s0 W (r : DevRef τ sig) = W (r : DevRef τ sig) :=
  after_of_writes_sub s0 _ s0_writes h

attribute [local irreducible] Host.gather concatenate in
/-- Step 1, whatever the contents before it. -/
theorem s1_read (W : Valuation τ sig (Elt Ideal)) :
    after s1 W (main_v28 : DevRef τ sig)
      = step (W (main_v1 : DevRef τ sig)) (W (main_arg1 : DevRef τ sig)) (W (main_arg4 : DevRef τ sig)) 1
          slices_S100000x8_S100000x1_0_1 slices_S8x128x256_S1x128x256_1_0_0 (W (main_v15 : DevRef τ sig)) := by
  after_results_simp
  rfl

/-- The references s1's operations write. -/
abbrev s1_W : List (Ref sig .tc) := [main_v16, main_v17, main_c_2, main_v18, main_v19, main_c_3, main_v20, main_v21, main_v22, main_v23, main_v24, main_v25, main_v26, main_v27, main_v28]
theorem s1_writes : (s1 : List (HloOp τ sig (Elt Ideal))).Forall fun op => op.writes ⊆ (s1_W.map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_, ?_⟩ <;> exact List.mem_map_of_mem (by decide)
/-- A reference s1 does not write keeps its contents. -/
theorem s1_frame (W : Valuation τ sig (Elt Ideal)) (r : Ref sig .tc) (h : r ∉ s1_W) : after s1 W (r : DevRef τ sig) = W (r : DevRef τ sig) :=
  after_of_writes_sub s1 _ s1_writes h

attribute [local irreducible] Host.gather concatenate in
/-- Step 2, whatever the contents before it. -/
theorem s2_read (W : Valuation τ sig (Elt Ideal)) :
    after s2 W (main_v41 : DevRef τ sig)
      = step (W (main_v1 : DevRef τ sig)) (W (main_arg1 : DevRef τ sig)) (W (main_arg4 : DevRef τ sig)) 2
          slices_S100000x8_S100000x1_0_2 slices_S8x128x256_S1x128x256_2_0_0 (W (main_v28 : DevRef τ sig)) := by
  after_results_simp
  rfl

/-- The references s2's operations write. -/
abbrev s2_W : List (Ref sig .tc) := [main_v29, main_v30, main_c_4, main_v31, main_v32, main_c_5, main_v33, main_v34, main_v35, main_v36, main_v37, main_v38, main_v39, main_v40, main_v41]
theorem s2_writes : (s2 : List (HloOp τ sig (Elt Ideal))).Forall fun op => op.writes ⊆ (s2_W.map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_, ?_⟩ <;> exact List.mem_map_of_mem (by decide)
/-- A reference s2 does not write keeps its contents. -/
theorem s2_frame (W : Valuation τ sig (Elt Ideal)) (r : Ref sig .tc) (h : r ∉ s2_W) : after s2 W (r : DevRef τ sig) = W (r : DevRef τ sig) :=
  after_of_writes_sub s2 _ s2_writes h

attribute [local irreducible] Host.gather concatenate in
/-- Step 3, whatever the contents before it. -/
theorem s3_read (W : Valuation τ sig (Elt Ideal)) :
    after s3b (after s3a W) (main_v54 : DevRef τ sig)
      = step (W (main_v1 : DevRef τ sig)) (W (main_arg1 : DevRef τ sig)) (W (main_arg4 : DevRef τ sig)) 3
          slices_S100000x8_S100000x1_0_3 slices_S8x128x256_S1x128x256_3_0_0 (W (main_v41 : DevRef τ sig)) := by
  after_results_simp
  rfl

/-- The references step 3's operations write. -/
abbrev s3_W : List (Ref sig .tc) := [main_v42, main_v43, main_c_6, main_v44, main_v45, main_c_7, main_v46, main_v47, main_v48, main_v49, main_v50, main_v51, main_v52, main_v53, main_v54]
theorem s3a_writes : (s3a : List (HloOp τ sig (Elt Ideal))).Forall fun op => op.writes ⊆ (s3_W.map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_, ?_⟩ <;> exact List.mem_map_of_mem (by decide)
theorem s3b_writes : (s3b : List (HloOp τ sig (Elt Ideal))).Forall fun op => op.writes ⊆ (s3_W.map (Proc.devRef (τ := τ) .tc)).toFinset := by
  simp only [List.Forall, nullary_writes, unary_writes, binary_writes, ternary_writes, reshape_writes, Finset.singleton_subset_iff, List.mem_toFinset]
  refine ⟨?_, ?_, ?_, ?_, ?_⟩ <;> exact List.mem_map_of_mem (by decide)
/-- A reference step 3 does not write keeps its contents. -/
theorem s3_frame (W : Valuation τ sig (Elt Ideal)) (r : Ref sig .tc) (h : r ∉ s3_W) :
    after s3b (after s3a W) (r : DevRef τ sig) = W (r : DevRef τ sig) :=
  (after_of_writes_sub s3b _ s3b_writes h).trans (after_of_writes_sub s3a _ s3a_writes h)

attribute [local irreducible] Host.gather concatenate in
/-- Step 4, whatever the contents before it. -/
theorem s4_read (W : Valuation τ sig (Elt Ideal)) :
    after s4 W (main_v67 : DevRef τ sig)
      = step (W (main_v1 : DevRef τ sig)) (W (main_arg1 : DevRef τ sig)) (W (main_arg4 : DevRef τ sig)) 4
          slices_S100000x8_S100000x1_0_4 slices_S8x128x256_S1x128x256_4_0_0 (W (main_v54 : DevRef τ sig)) := by
  after_results_simp
  rfl

/-- The references s4's operations write. -/
abbrev s4_W : List (Ref sig .tc) := [main_v55, main_v56, main_c_8, main_v57, main_v58, main_c_9, main_v59, main_v60, main_v61, main_v62, main_v63, main_v64, main_v65, main_v66, main_v67]
theorem s4_writes : (s4 : List (HloOp τ sig (Elt Ideal))).Forall fun op => op.writes ⊆ (s4_W.map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_, ?_⟩ <;> exact List.mem_map_of_mem (by decide)
/-- A reference s4 does not write keeps its contents. -/
theorem s4_frame (W : Valuation τ sig (Elt Ideal)) (r : Ref sig .tc) (h : r ∉ s4_W) : after s4 W (r : DevRef τ sig) = W (r : DevRef τ sig) :=
  after_of_writes_sub s4 _ s4_writes h

attribute [local irreducible] Host.gather concatenate in
/-- Step 5, whatever the contents before it. -/
theorem s5_read (W : Valuation τ sig (Elt Ideal)) :
    after s5 W (main_v80 : DevRef τ sig)
      = step (W (main_v1 : DevRef τ sig)) (W (main_arg1 : DevRef τ sig)) (W (main_arg4 : DevRef τ sig)) 5
          slices_S100000x8_S100000x1_0_5 slices_S8x128x256_S1x128x256_5_0_0 (W (main_v67 : DevRef τ sig)) := by
  after_results_simp
  rfl

/-- The references s5's operations write. -/
abbrev s5_W : List (Ref sig .tc) := [main_v68, main_v69, main_c_10, main_v70, main_v71, main_c_11, main_v72, main_v73, main_v74, main_v75, main_v76, main_v77, main_v78, main_v79, main_v80]
theorem s5_writes : (s5 : List (HloOp τ sig (Elt Ideal))).Forall fun op => op.writes ⊆ (s5_W.map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_, ?_⟩ <;> exact List.mem_map_of_mem (by decide)
/-- A reference s5 does not write keeps its contents. -/
theorem s5_frame (W : Valuation τ sig (Elt Ideal)) (r : Ref sig .tc) (h : r ∉ s5_W) : after s5 W (r : DevRef τ sig) = W (r : DevRef τ sig) :=
  after_of_writes_sub s5 _ s5_writes h

attribute [local irreducible] Host.gather concatenate in
/-- Step 6, whatever the contents before it. -/
theorem s6_read (W : Valuation τ sig (Elt Ideal)) :
    after s6 W (main_v93 : DevRef τ sig)
      = step (W (main_v1 : DevRef τ sig)) (W (main_arg1 : DevRef τ sig)) (W (main_arg4 : DevRef τ sig)) 6
          slices_S100000x8_S100000x1_0_6 slices_S8x128x256_S1x128x256_6_0_0 (W (main_v80 : DevRef τ sig)) := by
  after_results_simp
  rfl

/-- The references s6's operations write. -/
abbrev s6_W : List (Ref sig .tc) := [main_v81, main_v82, main_c_12, main_v83, main_v84, main_c_13, main_v85, main_v86, main_v87, main_v88, main_v89, main_v90, main_v91, main_v92, main_v93]
theorem s6_writes : (s6 : List (HloOp τ sig (Elt Ideal))).Forall fun op => op.writes ⊆ (s6_W.map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_, ?_⟩ <;> exact List.mem_map_of_mem (by decide)
/-- A reference s6 does not write keeps its contents. -/
theorem s6_frame (W : Valuation τ sig (Elt Ideal)) (r : Ref sig .tc) (h : r ∉ s6_W) : after s6 W (r : DevRef τ sig) = W (r : DevRef τ sig) :=
  after_of_writes_sub s6 _ s6_writes h

attribute [local irreducible] Host.gather concatenate in
/-- Step 7, whatever the contents before it. -/
theorem s7_read (W : Valuation τ sig (Elt Ideal)) :
    after s7b (after s7a W) (main_v106 : DevRef τ sig)
      = step (W (main_v1 : DevRef τ sig)) (W (main_arg1 : DevRef τ sig)) (W (main_arg4 : DevRef τ sig)) 7
          slices_S100000x8_S100000x1_0_7 slices_S8x128x256_S1x128x256_7_0_0 (W (main_v93 : DevRef τ sig)) := by
  after_results_simp
  rfl

/-- The references step 7's operations write. -/
abbrev s7_W : List (Ref sig .tc) := [main_v94, main_v95, main_c_14, main_v96, main_v97, main_c_15, main_v98, main_v99, main_v100, main_v101, main_v102, main_v103, main_v104, main_v105, main_v106]
theorem s7a_writes : (s7a : List (HloOp τ sig (Elt Ideal))).Forall fun op => op.writes ⊆ (s7_W.map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_, ?_⟩ <;> exact List.mem_map_of_mem (by decide)
theorem s7b_writes : (s7b : List (HloOp τ sig (Elt Ideal))).Forall fun op => op.writes ⊆ (s7_W.map (Proc.devRef (τ := τ) .tc)).toFinset := by
  simp only [List.Forall, nullary_writes, unary_writes, binary_writes, ternary_writes, reshape_writes, Finset.singleton_subset_iff, List.mem_toFinset]
  refine ⟨?_, ?_, ?_, ?_, ?_⟩ <;> exact List.mem_map_of_mem (by decide)
/-- A reference step 7 does not write keeps its contents. -/
theorem s7_frame (W : Valuation τ sig (Elt Ideal)) (r : Ref sig .tc) (h : r ∉ s7_W) :
    after s7b (after s7a W) (r : DevRef τ sig) = W (r : DevRef τ sig) :=
  (after_of_writes_sub s7b _ s7b_writes h).trans (after_of_writes_sub s7a _ s7a_writes h)

end Cert.ReferenceIdeal.RefValue

end
-- ==== Proof.RefTail.lean ====
/-
  The last 47 operations read back: whatever the contents `W` before them, the result buffer holds `fin` of `W`'s
  accumulator, of its `mean` and `var`, and of `W`'s scale and shift; a reference they do not write keeps its contents.
-/
import proofs.«126886_j25967372272144_2_alg».proof.Proof.RefOps
import proofs.«126886_j25967372272144_2_alg».proof.Proof.RefDefs

noncomputable section

namespace Cert.ReferenceIdeal.RefValue

open Cert.ReferenceIdeal Cert.ReferenceIdeal.Gen Idealize.ShloMosaic Idealize.ShloMosaic.TcCoe Idealize.SL.Sem Idealize.ShloMosaic.StableHlo

attribute [local irreducible] Host.reduceAdd in
theorem tl_read (W : Valuation τ sig (Elt Ideal)) :
    after tl W (main_v126 : DevRef τ sig)
      = fin (W (main_v106 : DevRef τ sig)) (mean (W (main_v106 : DevRef τ sig))) (var (W (main_v106 : DevRef τ sig)))
          (W (main_arg2 : DevRef τ sig)) (W (main_arg3 : DevRef τ sig)) := by
  after_results_simp
  rfl

/-- The references tl's operations write. -/
abbrev tl_W : List (Ref sig .tc) := [main_cst_16, main_v107, main_cst_17, main_v108, main_v109, main_c_18, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v110, main_v111, main_v112, main_v113, main_cst_19, main_v114, main_v115, main_v116, main_v117, main_v118, main_v119, main_v120, main_v121, main_v122, main_v123, main_v124, main_v125, main_call1_cst, main_call1_v0, main_v126]
theorem tl_writes : (tl : List (HloOp τ sig (Elt Ideal))).Forall fun op => op.writes ⊆ (tl_W.map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)
/-- A reference tl does not write keeps its contents. -/
theorem tl_frame (W : Valuation τ sig (Elt Ideal)) (r : Ref sig .tc) (h : r ∉ tl_W) : after tl W (r : DevRef τ sig) = W (r : DevRef τ sig) :=
  after_of_writes_sub tl _ tl_writes h

end Cert.ReferenceIdeal.RefValue

end
-- ==== Proof.RefRun.lean ====
/-
  The reference program's run in terms of its named values: every weakly fair execution of @main terminates with the
  result buffer at `fin` of the accumulator `acc` of the arguments, of its `mean` and `var`, and of the scale and shift
  arguments, and with the five arguments unchanged.

  The fold over the 172 operations is taken piece by piece: the pieces' lists concatenated are the whole line, the fold
  over a concatenation is the folds in turn, each step reads the previous step's accumulator and the table, weights and
  rule book, which no step writes.
-/
import proofs.«126886_j25967372272144_2_alg».proof.Proof.RefSteps
import proofs.«126886_j25967372272144_2_alg».proof.Proof.RefTail

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The fold over two lines in a row is the fold over the second from the fold over the first. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

/-- The fold over the whole line is the folds over the pieces, in order. -/
theorem after_ops (V : Valuation τ sig (Elt Ideal)) :
    after ops V = after tl (after s7b (after s7a (after s6 (after s5 (after s4 (after s3b (after s3a (after s2 (after s1 (after s0 (after pre (V)))))))))))) := by
  show after ((pre ++ (s0 ++ (s1 ++ (s2 ++ s3a)))) ++ ((s3b ++ (s4 ++ (s5 ++ (s6 ++ s7a)))) ++ (s7b ++ tl))) V = _
  simp only [after_app]

/-- After the eight steps the accumulator's buffer holds `acc` of the arguments. -/
theorem acc_read (V : Valuation τ sig (Elt Ideal)) :
    (after s7b (after s7a (after s6 (after s5 (after s4 (after s3b (after s3a (after s2 (after s1 (after s0 (after pre (V)))))))))))) (main_v106 : DevRef τ sig)
      = acc (V (main_arg0 : DevRef τ sig)) (V (main_arg1 : DevRef τ sig)) (V (main_arg4 : DevRef τ sig)) := by
  unfold acc
  rw [s7_read,
    s6_frame _ main_v1 (by decide),
    s6_frame _ main_arg1 (by decide),
    s6_frame _ main_arg4 (by decide),
    s6_read,
    s5_frame _ main_v1 (by decide),
    s5_frame _ main_arg1 (by decide),
    s5_frame _ main_arg4 (by decide),
    s5_read,
    s4_frame _ main_v1 (by decide),
    s4_frame _ main_arg1 (by decide),
    s4_frame _ main_arg4 (by decide),
    s4_read,
    s3_frame _ main_v1 (by decide),
    s3_frame _ main_arg1 (by decide),
    s3_frame _ main_arg4 (by decide),
    s3_read,
    s2_frame _ main_v1 (by decide),
    s2_frame _ main_arg1 (by decide),
    s2_frame _ main_arg4 (by decide),
    s2_read,
    s1_frame _ main_v1 (by decide),
    s1_frame _ main_arg1 (by decide),
    s1_frame _ main_arg4 (by decide),
    s1_read,
    s0_frame _ main_v1 (by decide),
    s0_frame _ main_arg1 (by decide),
    s0_frame _ main_arg4 (by decide),
    s0_read,
    pre_read_v1,
    pre_frame _ main_arg1 (by decide),
    pre_frame _ main_arg4 (by decide),
    pre_read_v2]

/-- The eight steps and what precedes them write no argument. -/
theorem steps_arg (V : Valuation τ sig (Elt Ideal)) :
    (after s7b (after s7a (after s6 (after s5 (after s4 (after s3b (after s3a (after s2 (after s1 (after s0 (after pre (V)))))))))))) (main_arg0 : DevRef τ sig) = V (main_arg0 : DevRef τ sig)
    ∧ (after s7b (after s7a (after s6 (after s5 (after s4 (after s3b (after s3a (after s2 (after s1 (after s0 (after pre (V)))))))))))) (main_arg1 : DevRef τ sig) = V (main_arg1 : DevRef τ sig)
    ∧ (after s7b (after s7a (after s6 (after s5 (after s4 (after s3b (after s3a (after s2 (after s1 (after s0 (after pre (V)))))))))))) (main_arg2 : DevRef τ sig) = V (main_arg2 : DevRef τ sig)
    ∧ (after s7b (after s7a (after s6 (after s5 (after s4 (after s3b (after s3a (after s2 (after s1 (after s0 (after pre (V)))))))))))) (main_arg3 : DevRef τ sig) = V (main_arg3 : DevRef τ sig)
    ∧ (after s7b (after s7a (after s6 (after s5 (after s4 (after s3b (after s3a (after s2 (after s1 (after s0 (after pre (V)))))))))))) (main_arg4 : DevRef τ sig) = V (main_arg4 : DevRef τ sig) :=
  ⟨by rw [s7_frame _ main_arg0 (by decide), s6_frame _ main_arg0 (by decide), s5_frame _ main_arg0 (by decide), s4_frame _ main_arg0 (by decide), s3_frame _ main_arg0 (by decide), s2_frame _ main_arg0 (by decide), s1_frame _ main_arg0 (by decide), s0_frame _ main_arg0 (by decide), pre_frame _ main_arg0 (by decide)],
   by rw [s7_frame _ main_arg1 (by decide), s6_frame _ main_arg1 (by decide), s5_frame _ main_arg1 (by decide), s4_frame _ main_arg1 (by decide), s3_frame _ main_arg1 (by decide), s2_frame _ main_arg1 (by decide), s1_frame _ main_arg1 (by decide), s0_frame _ main_arg1 (by decide), pre_frame _ main_arg1 (by decide)],
   by rw [s7_frame _ main_arg2 (by decide), s6_frame _ main_arg2 (by decide), s5_frame _ main_arg2 (by decide), s4_frame _ main_arg2 (by decide), s3_frame _ main_arg2 (by decide), s2_frame _ main_arg2 (by decide), s1_frame _ main_arg2 (by decide), s0_frame _ main_arg2 (by decide), pre_frame _ main_arg2 (by decide)],
   by rw [s7_frame _ main_arg3 (by decide), s6_frame _ main_arg3 (by decide), s5_frame _ main_arg3 (by decide), s4_frame _ main_arg3 (by decide), s3_frame _ main_arg3 (by decide), s2_frame _ main_arg3 (by decide), s1_frame _ main_arg3 (by decide), s0_frame _ main_arg3 (by decide), pre_frame _ main_arg3 (by decide)],
   by rw [s7_frame _ main_arg4 (by decide), s6_frame _ main_arg4 (by decide), s5_frame _ main_arg4 (by decide), s4_frame _ main_arg4 (by decide), s3_frame _ main_arg4 (by decide), s2_frame _ main_arg4 (by decide), s1_frame _ main_arg4 (by decide), s0_frame _ main_arg4 (by decide), pre_frame _ main_arg4 (by decide)]⟩

/-- The result buffer after the whole line. -/
theorem out_eq (V : Valuation τ sig (Elt Ideal)) :
    after ops V (main_v126 : DevRef τ sig)
      = fin (acc (V (main_arg0 : DevRef τ sig)) (V (main_arg1 : DevRef τ sig)) (V (main_arg4 : DevRef τ sig)))
          (mean (acc (V (main_arg0 : DevRef τ sig)) (V (main_arg1 : DevRef τ sig)) (V (main_arg4 : DevRef τ sig))))
          (var (acc (V (main_arg0 : DevRef τ sig)) (V (main_arg1 : DevRef τ sig)) (V (main_arg4 : DevRef τ sig))))
          (V (main_arg2 : DevRef τ sig)) (V (main_arg3 : DevRef τ sig)) := by
  rw [after_ops, tl_read, acc_read, (steps_arg V).2.2.1, (steps_arg V).2.2.2.1]

/-- No operation of the line writes an argument. -/
theorem arg_eq (V : Valuation τ sig (Elt Ideal)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig) := by
  rw [after_ops, tl_frame _ main_arg0 (by decide), tl_frame _ main_arg1 (by decide), tl_frame _ main_arg2 (by decide),
    tl_frame _ main_arg3 (by decide), tl_frame _ main_arg4 (by decide)]
  exact steps_arg V

/-- On every device, from any memory with zero counters: every weakly fair execution of @main terminates with the result
    at `fin` of the accumulator, its mean, its variance and the scale and shift, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v126)
          = fin (acc (m ((c.tc : Thread nD τ).loc main_arg0)) (m ((c.tc : Thread nD τ).loc main_arg1)) (m ((c.tc : Thread nD τ).loc main_arg4)))
              (mean (acc (m ((c.tc : Thread nD τ).loc main_arg0)) (m ((c.tc : Thread nD τ).loc main_arg1)) (m ((c.tc : Thread nD τ).loc main_arg4))))
              (var (acc (m ((c.tc : Thread nD τ).loc main_arg0)) (m ((c.tc : Thread nD τ).loc main_arg1)) (m ((c.tc : Thread nD τ).loc main_arg4))))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c =>
      ⟨(h c main_v126).trans (out_eq (launchContents m c)),
       (h c main_arg0).trans (arg_eq (launchContents m c)).1,
       (h c main_arg1).trans (arg_eq (launchContents m c)).2.1,
       (h c main_arg2).trans (arg_eq (launchContents m c)).2.2.1,
       (h c main_arg3).trans (arg_eq (launchContents m c)).2.2.2.1,
       (h c main_arg4).trans (arg_eq (launchContents m c)).2.2.2.2⟩)
    (run_ops m ρ)

end Cert.ReferenceIdeal.RefValue

end
-- ==== Proof.RefTable.lean ====
/-
  The feature table's entries are real when the features' are: a row below 400000 is the features' row, the last row is
  the appended zero row.
-/
import proofs.«126886_j25967372272144_2_alg».proof.Proof.RefDefs
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen

/-- A table row below 400000 is the features' row. -/
theorem table_apply_lt (a0 : FVec Ideal S400000x128 .f32) (r : Fin 400001) (c : Fin 128) (hlt : r.val < 400000) :
    table a0 (ix2 r c) = a0 (ix2 (⟨r.val, hlt⟩ : Fin 400000) c) := by
  unfold table
  exact concatenate_pair_apply_left (0 : Fin S400001x128.rank) a0 _ concatenates_S400000x128_S1x128_S400001x128_d0 (ix2 r c) rfl
    (ix2 (⟨r.val, hlt⟩ : Fin 400000) c) (fun b => by
      match b with
      | ⟨0, _⟩ => rfl
      | ⟨1, _⟩ => rfl)

/-- The table's last row is zero. -/
theorem table_apply_last (a0 : FVec Ideal S400000x128 .f32) (r : Fin 400001) (c : Fin 128) (hr : r.val = 400000) :
    table a0 (ix2 r c) = 0 := by
  unfold table
  refine (concatenate_pair_apply_right (0 : Fin S400001x128.rank) a0 _ concatenates_S400000x128_S1x128_S400001x128_d0 (ix2 r c) rfl rfl
    (ix2 (0 : Fin 1) c) (fun b hb => by
      match b with
      | ⟨0, _⟩ => exact absurd rfl hb
      | ⟨1, _⟩ => rfl) (by
      show 0 + 400000 = r.val
      omega)).trans ?_
  show Ideal.ofBits .f32 0x00000000#32 = 0
  exact Ideal.ofBits_zero_f32

/-- Every entry of the table is a real number when every entry of the features is. -/
theorem table_real (a0 : FVec Ideal S400000x128 .f32) (h0 : ∀ i, ∃ r : ℝ, a0 i = (r : EReal)) :
    ∀ i, ∃ r : ℝ, table a0 i = (r : EReal) := by
  intro i
  obtain ⟨r, c, rfl⟩ : ∃ (r : Fin 400001) (c : Fin 128), i = ix2 r c := ⟨i 0, i 1, eq_ix2 i⟩
  by_cases hlt : r.val < 400000
  · rw [table_apply_lt a0 r c hlt]
    exact h0 _
  · have hr : r.val = 400000 := by have := r.isLt; omega
    rw [table_apply_last a0 r c hr]
    exact ⟨0, EReal.coe_zero.symm⟩

end Cert.ReferenceIdeal.RefValue

end
-- ==== Proof.PreFinite.lean ====
/-
  From the precondition to real entries: the predicate is the conjunction of four "every entry's absolute value is below
  +∞"; when it holds, every entry of the first two arguments is a real number — an extended real whose absolute value
  max x (−x) is below +∞ is neither infinity.
-/
import proofs.«126886_j25967372272144_2_alg».proof.Pre_finite_inputs
import proofs.«126886_j25967372272144_2_alg».proof.Proof.Gen.Pre_finite_inputs
import Idealize.ShloMosaic.Lib.ReduceAll
import Idealize.ShloMosaic.Lib.ValueIdx
import Idealize.ShloMosaic.PureOps.Ideal.Laws

noncomputable section

namespace Cert.PreFinite

open Idealize.ShloMosaic Idealize.ShloMosaic.ValueIdx Cert.Pre_finite_inputs

/-- The rank-0 shape has one index. -/
instance : Subsingleton S_.Idx := ⟨fun a b => funext fun d => d.elim0⟩

/-- The pattern 0x7F800000 denotes +∞. -/
theorem ofBits_inf : Ideal.ofBits .f32 0x7F800000#32 = (⊤ : EReal) := by
  simp [Ideal.ofBits, Ideal.ieee]

/-- An extended real whose absolute value compares below +∞ is a real. -/
theorem real_of_abs_lt (x : EReal)
    (h : Ideal.cmp .olt (max x (-x)) (Ideal.ofBits .f32 0x7F800000#32) = 1#1) : ∃ r : ℝ, x = (r : EReal) := by
  rw [ofBits_inf] at h
  have hlt : max x (-x) < (⊤ : EReal) := by
    by_contra hn
    have : Ideal.cmp .olt (max x (-x)) (⊤ : EReal) = 0#1 := by
      show BitVec.ofBool (decide (max x (-x) < (⊤ : EReal))) = 0#1
      rw [decide_eq_false hn]; rfl
    rw [this] at h
    exact absurd h (by decide)
  induction x using EReal.rec with
  | bot => simp at hlt
  | coe r => exact ⟨r, rfl⟩
  | top => simp at hlt

/-- When the precondition holds, every entry of the features and of the weights is a real number. -/
theorem real_of_pre [Cert.Pre_finite_inputs.Facts] (a0 : FVec Ideal S400000x128 .f32) (a1 : FVec Ideal S8x128x256 .f32)
    (a2 a3 : FVec Ideal S256 .f32) (a4 : IVec S100000x8 32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) := by
  have h1 := congrFun h ix0
  dsimp only [fn, fn_part1] at h1
  change IntOp.andi _ _ = 1#1 at h1
  obtain ⟨h13, _⟩ := IntOp.andi_eq_one.1 h1
  change IntOp.andi _ _ = 1#1 at h13
  obtain ⟨h8, _⟩ := IntOp.andi_eq_one.1 h13
  change IntOp.andi _ _ = 1#1 at h8
  obtain ⟨h3, h7⟩ := IntOp.andi_eq_one.1 h8
  refine ⟨fun i => ?_, fun i => ?_⟩
  · exact real_of_abs_lt (a0 i) (Host.reduce_andi_all _ _ _ _ _ h3 i)
  · exact real_of_abs_lt (a1 i) (Host.reduce_andi_all _ _ _ _ _ h7 i)

end Cert.PreFinite

end
-- ==== Proof.lean ====
/-
  The certificate: a sparse 2×2×2 convolution with batch normalisation and rectification, computed by a tiled matrix-product
  kernel, against its reference.

  Both programs append a zero row to the features, select for every output site and filter offset a table row by the rule
  book (an index is read as an array index is: a negative word moved up by the table's height, then clamped into the table),
  and form  x[p, q] = Σ_k Σ_c T[row(a4[p, k]), c] · W[k, c, q]  — the kernel as ONE product over the 1024 merged positions
  (k, c), tile by tile of 5000 sites, the reference as eight products over c accumulated from zero: the same finite sum, in
  another grouping. The kernel also stores per tile the column sums of x and of x²; the program divides their totals by the
  100000 sites to get the mean μ and the variance  E[x²] − μ², where the reference takes  E[(x − μ)²]: equal on real numbers,
  and every x[p, q] is real because the precondition makes every feature and weight finite. Both then return
  max((x − μ) · rsqrt(var + ε) · γ + β, 0), by the same operations. A change of float format does nothing to an extended
  real, so the kernel's narrowing of its operands plays no part.

  The three frame claims: the two kernel programs' are the generated frame proofs; the reference's is its run with the
  result dropped. The idealisation rewrote nothing, so its claim is trivial.
-/
import proofs.«126886_j25967372272144_2_alg».proof.Defs
import proofs.«126886_j25967372272144_2_alg».proof.Proof.Gen.Kernel
import proofs.«126886_j25967372272144_2_alg».proof.Proof.Gen.Kernel.Frame
import proofs.«126886_j25967372272144_2_alg».proof.Proof.Gen.KernelIdeal
import proofs.«126886_j25967372272144_2_alg».proof.Proof.Gen.KernelIdeal.Frame
import proofs.«126886_j25967372272144_2_alg».proof.Proof.Gen.ReferenceIdeal
import proofs.«126886_j25967372272144_2_alg».proof.Proof.Gen.Pre_finite_inputs
import proofs.«126886_j25967372272144_2_alg».proof.Proof.KRun
import proofs.«126886_j25967372272144_2_alg».proof.Proof.KEntry
import proofs.«126886_j25967372272144_2_alg».proof.Proof.SpecReal
import proofs.«126886_j25967372272144_2_alg».proof.Proof.Bridge
import proofs.«126886_j25967372272144_2_alg».proof.Proof.RefRun
import proofs.«126886_j25967372272144_2_alg».proof.Proof.RefTable
import proofs.«126886_j25967372272144_2_alg».proof.Proof.PreFinite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result's value dropped. -/
theorem frame_reference : Cert.frame_ReferenceIdeal := fun m ρ _ =>
  (θ_run Cert.ReferenceIdeal.defs _ _).mono (fun _ h c => (h c).2) (Cert.ReferenceIdeal.RefValue.run m ρ)

/-- The two idealised programs, from memories agreeing on the arguments, end with equal results. -/
theorem algebraic : Cert.algebraic_KernelIdeal_ReferenceIdeal := by
  intro m ρ m' ρ' hpre hagree
  refine ⟨_, Cert.KernelIdeal.KV.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]
  -- every feature and weight is a real number, so the table is, so every value of the convolution is
  obtain ⟨h0, h1⟩ := Cert.PreFinite.real_of_pre _ _ _ _ _ (hpre c)
  have hx : ∀ (p : Fin 100000) (q : Fin 256), ∃ r : ℝ,
      Cert.KernelIdeal.KV.prodArr (Cert.KernelIdeal.Gen.V m c Cert.KernelIdeal.main_v10) (Cert.KernelIdeal.Gen.V m c Cert.KernelIdeal.main_v12) (ix2 p q)
        = ((r : ℝ) : EReal) := fun p q => by
    show ∃ r : ℝ, Cert.KernelIdeal.KV.prodAt _ _ p q = _
    rw [Cert.KernelIdeal.KV.prod_eq_raw, Cert.Bridge.table_eq]
    exact Cert.Spec.raw_real _ _ _ (Cert.ReferenceIdeal.RefValue.table_real _ h0) h1 p q
  choose xr hxr using hx
  rw [← Cert.Bridge.prod_eq_acc m c, ← Cert.Bridge.mu_eq, ← Cert.Bridge.var_eq _ _ xr hxr, ← Cert.Bridge.fin_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
